-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x16 : Shape := ⟨2, ![128, 16]⟩
abbrev S16 : Shape := ⟨1, ![16]⟩
abbrev S16x128 : Shape := ⟨2, ![16, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x600000 32) (main_arg2 : FVec F S128x16 .f32) (main_arg3 : FVec F S16 .f32) (main_arg4 : FVec F S16x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x128 .f32 := Host.absf main_arg4
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg5 main_v13 main_v16
-- ==== Kernel.lean ====
abbrev S50000x128 : Shape := ⟨2, ![50000, 128]⟩
abbrev S2x600000 : Shape := ⟨2, ![2, 600000]⟩
abbrev S128x16 : Shape := ⟨2, ![128, 16]⟩
abbrev S16 : Shape := ⟨1, ![16]⟩
abbrev S16x128 : Shape := ⟨2, ![16, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x16 : Shape := ⟨2, ![50000, 16]⟩
abbrev S5000x128 : Shape := ⟨2, ![5000, 128]⟩
abbrev S5000x16 : Shape := ⟨2, ![5000, 16]⟩
abbrev S650000x16 : Shape := ⟨2, ![650000, 16]⟩
abbrev S1x16 : Shape := ⟨2, ![1, 16]⟩
abbrev S650000x128 : Shape := ⟨2, ![650000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 84
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x16, .f32⟩
  | .hbm, ⟨3, _⟩ => ⟨S16, .f32⟩
  | .hbm, ⟨4, _⟩ => ⟨S16x128, .f32⟩
  | .hbm, ⟨5, _⟩ => ⟨S128, .f32⟩
  | .hbm, ⟨6, _⟩ => ⟨S50000, .i32⟩
  | .hbm, ⟨7, _⟩ => ⟨S1x600000, .i32⟩
  | .hbm, ⟨8, _⟩ => ⟨S600000, .i32⟩
  | .hbm, ⟨9, _⟩ => ⟨S650000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S50000x16, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x16, .f32⟩
  | .hbm, ⟨56, _⟩ => ⟨S650000x1, .f32⟩
  | .hbm, ⟨57, _⟩ => ⟨S650000x16, .f32⟩
  | .hbm, ⟨58, _⟩ => ⟨S650000x16, .f32⟩
  | .hbm, ⟨59, _⟩ => ⟨S_, .f32⟩
  | .hbm, ⟨60, _⟩ => ⟨S50000x16, .f32⟩
  | .hbm, ⟨61, _⟩ => ⟨S650000x1, .i32⟩
  | .hbm, ⟨62, _⟩ => ⟨S50000x16, .f32⟩
  | .hbm, ⟨63, _⟩ => ⟨S1x16, .f32⟩
  | .hbm, ⟨64, _⟩ => ⟨S50000x16, .f32⟩
  | .hbm, ⟨65, _⟩ => ⟨S50000x128, .f32⟩
  | .hbm, ⟨66, _⟩ => ⟨S_, .i32⟩
  | .hbm, ⟨67, _⟩ => ⟨S650000, .i32⟩
  | .hbm, ⟨68, _⟩ => ⟨S650000, .i1⟩
  | .hbm, ⟨69, _⟩ => ⟨S_, .i32⟩
  | .hbm, ⟨70, _⟩ => ⟨S650000, .i32⟩
  | .hbm, ⟨71, _⟩ => ⟨S650000, .i32⟩
  | .hbm, ⟨72, _⟩ => ⟨S650000, .i32⟩
  | .hbm, ⟨73, _⟩ => ⟨S650000x1, .i32⟩
  | .hbm, ⟨74, _⟩ => ⟨S650000x128, .f32⟩
  | .hbm, ⟨75, _⟩ => ⟨S650000x1, .f32⟩
  | .hbm, ⟨76, _⟩ => ⟨S650000x128, .f32⟩
  | .hbm, ⟨77, _⟩ => ⟨S650000x128, .f32⟩
  | .hbm, ⟨78, _⟩ => ⟨S_, .f32⟩
  | .hbm, ⟨79, _⟩ => ⟨S50000x128, .f32⟩
  | .hbm, ⟨80, _⟩ => ⟨S650000x1, .i32⟩
  | .hbm, ⟨81, _⟩ => ⟨S50000x128, .f32⟩
  | .hbm, ⟨82, _⟩ => ⟨S1x128, .f32⟩
  | .hbm, ⟨83, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S650000x1_S650000x16_0_1 : S650000x1.BroadcastsInDim S650000x16 (![0, 1] : Fin 2 → Fin S650000x16.rank)
  bcast_S_S50000x16 : S_.BroadcastsInDim S50000x16 (![] : Fin 0 → Fin S50000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x128_S16x128_0_0 : ∀ a, (![0, 0] : Fin 2 → Nat) a + S16x128.size a ≤ S16x128.size a
  h_S16x128 : 0 < S16x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x16_S5000x16_1_0_0_1_n_n_wf : DotDims.WF S5000x128 S128x16 S5000x16 [1] [0] [0] [1] [] []
  gather_S50000x16_S650000x1_S650000x16_1_0_n_n_0_1_116_wf : GatherDims.WF S50000x16 S650000x1 S650000x16 [1] [0] [] [0] [] 1 ![1, 16]
  scatter_S50000x16_S650000x1_S650000x16_1_0_0_1_wf : ScatterDims.WF S50000x16 S650000x1 S650000x16 [1] [0] [0] 1
  dot_S5000x16_S16x128_S5000x128_1_0_0_1_n_n_wf : DotDims.WF S5000x16 S16x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S50000x16.size a
  hwx0_2 : ∀ i : grid0.Coords, EltTy.bits .f32 = 32 ∨ (Rect.block (s := S50000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S50000x16.size a
  hwx1_0 : ∀ i : grid1.Coords, EltTy.bits .f32 = 32 ∨ (Rect.block (s := S50000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S50000x16.size a
  hwx1_2 : ∀ i : grid1.Coords, EltTy.bits .f32 = 32 ∨ (Rect.block (s := S50000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S50000x16.size a
  hwx2_0 : ∀ i : grid2.Coords, EltTy.bits .f32 = 32 ∨ (Rect.block (s := S50000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x128.size a ≤ S16x128.size a
  hwx2_1 : ∀ i : grid2.Coords, EltTy.bits .f32 = 32 ∨ (Rect.block (s := S16x128) S16x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S50000x16_S650000x1_S650000x16_1_0_n_n_0_1_116 : GatherDims S50000x16 S650000x1 S650000x16 where
  offsetDims := [1]
  collapsedSliceDims := [0]
  operandBatchingDims := []
  startIndicesBatchingDims := []
  startIndexMap := [0]
  indexVectorDim := 1
  sliceSizes := ![1, 16]
  wf := gather_S50000x16_S650000x1_S650000x16_1_0_n_n_0_1_116_wf
def scatter_S50000x16_S650000x1_S650000x16_1_0_0_1 : ScatterDims S50000x16 S650000x1 S650000x16 where
  updateWindowDims := [1]
  insertedWindowDims := [0]
  scatterDimsToOperandDims := [0]
  indexVectorDim := 1
  wf := scatter_S50000x16_S650000x1_S650000x16_1_0_0_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x16 : Shape := ⟨2, ![128, 16]⟩
abbrev S16 : Shape := ⟨1, ![16]⟩
abbrev S16x128 : Shape := ⟨2, ![16, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x16 : Shape := ⟨2, ![50000, 16]⟩
abbrev S650000x16 : Shape := ⟨2, ![650000, 16]⟩
abbrev S1x16 : Shape := ⟨2, ![1, 16]⟩
abbrev S650000x128 : Shape := ⟨2, ![650000, 128]⟩
abbrev S1x128 : Shape := ⟨2, ![1, 128]⟩
abbrev S50000x1 : Shape := ⟨2, ![50000, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x16, .f32⟩
  | .hbm, ⟨3, _⟩ => ⟨S16, .f32⟩
  | .hbm, ⟨4, _⟩ => ⟨S16x128, .f32⟩
  | .hbm, ⟨5, _⟩ => ⟨S128, .f32⟩
  | .hbm, ⟨6, _⟩ => ⟨S50000, .i32⟩
  | .hbm, ⟨7, _⟩ => ⟨S1x600000, .i32⟩
  | .hbm, ⟨8, _⟩ => ⟨S600000, .i32⟩
  | .hbm, ⟨9, _⟩ => ⟨S650000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S50000x16, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x16, .f32⟩
  | .hbm, ⟨56, _⟩ => ⟨S650000x1, .f32⟩
  | .hbm, ⟨57, _⟩ => ⟨S650000x16, .f32⟩
  | .hbm, ⟨58, _⟩ => ⟨S650000x16, .f32⟩
  | .hbm, ⟨59, _⟩ => ⟨S_, .f32⟩
  | .hbm, ⟨60, _⟩ => ⟨S50000x16, .f32⟩
  | .hbm, ⟨61, _⟩ => ⟨S650000x1, .i32⟩
  | .hbm, ⟨62, _⟩ => ⟨S50000x16, .f32⟩
  | .hbm, ⟨63, _⟩ => ⟨S1x16, .f32⟩
  | .hbm, ⟨64, _⟩ => ⟨S50000x16, .f32⟩
  | .hbm, ⟨65, _⟩ => ⟨S50000x16, .f32⟩
  | .hbm, ⟨66, _⟩ => ⟨S_, .f32⟩
  | .hbm, ⟨67, _⟩ => ⟨S50000x16, .f32⟩
  | .hbm, ⟨68, _⟩ => ⟨S50000x16, .f32⟩
  | .hbm, ⟨69, _⟩ => ⟨S50000x128, .f32⟩
  | .hbm, ⟨70, _⟩ => ⟨S_, .i32⟩
  | .hbm, ⟨71, _⟩ => ⟨S650000, .i32⟩
  | .hbm, ⟨72, _⟩ => ⟨S650000, .i1⟩
  | .hbm, ⟨73, _⟩ => ⟨S_, .i32⟩
  | .hbm, ⟨74, _⟩ => ⟨S650000, .i32⟩
  | .hbm, ⟨75, _⟩ => ⟨S650000, .i32⟩
  | .hbm, ⟨76, _⟩ => ⟨S650000, .i32⟩
  | .hbm, ⟨77, _⟩ => ⟨S650000x1, .i32⟩
  | .hbm, ⟨78, _⟩ => ⟨S650000x128, .f32⟩
  | .hbm, ⟨79, _⟩ => ⟨S650000x1, .f32⟩
  | .hbm, ⟨80, _⟩ => ⟨S650000x128, .f32⟩
  | .hbm, ⟨81, _⟩ => ⟨S650000x128, .f32⟩
  | .hbm, ⟨82, _⟩ => ⟨S_, .f32⟩
  | .hbm, ⟨83, _⟩ => ⟨S50000x128, .f32⟩
  | .hbm, ⟨84, _⟩ => ⟨S650000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x128, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S50000, .f32⟩
  | .hbm, ⟨100, _⟩ => ⟨S50000x1, .f32⟩
  | .hbm, ⟨101, _⟩ => ⟨S50000x1, .f32⟩
  | .hbm, ⟨102, _⟩ => ⟨S50000x128, .f32⟩
  | .hbm, ⟨103, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x16_0_1 : S650000x1.BroadcastsInDim S650000x16 (![0, 1] : Fin 2 → Fin S650000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x16_S50000x16_1_0_0_1_n_n_wf : DotDims.WF S50000x128 S128x16 S50000x16 [1] [0] [0] [1] [] []
  gather_S50000x16_S650000x1_S650000x16_1_0_n_n_0_1_116_wf : GatherDims.WF S50000x16 S650000x1 S650000x16 [1] [0] [] [0] [] 1 ![1, 16]
  scatter_S50000x16_S650000x1_S650000x16_1_0_0_1_wf : ScatterDims.WF S50000x16 S650000x1 S650000x16 [1] [0] [0] 1
  dot_S50000x16_S16x128_S50000x128_1_0_0_1_n_n_wf : DotDims.WF S50000x16 S16x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def gather_S50000x16_S650000x1_S650000x16_1_0_n_n_0_1_116 : GatherDims S50000x16 S650000x1 S650000x16 where
  offsetDims := [1]
  collapsedSliceDims := [0]
  operandBatchingDims := []
  startIndicesBatchingDims := []
  startIndexMap := [0]
  indexVectorDim := 1
  sliceSizes := ![1, 16]
  wf := gather_S50000x16_S650000x1_S650000x16_1_0_n_n_0_1_116_wf
def scatter_S50000x16_S650000x1_S650000x16_1_0_0_1 : ScatterDims S50000x16 S650000x1 S650000x16 where
  updateWindowDims := [1]
  insertedWindowDims := [0]
  scatterDimsToOperandDims := [0]
  indexVectorDim := 1
  wf := scatter_S50000x16_S650000x1_S650000x16_1_0_0_1_wf
def dot_S50000x16_S16x128_S50000x128_1_0_0_1_n_n : DotDims S50000x16 S16x128 S50000x128 where
  lhsContracting := [1]
  rhsContracting := [0]
  lhsNonContracting := [0]
  rhsNonContracting := [1]
  lhsBatch := []
  rhsBatch := []
  wf := dot_S50000x16_S16x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.KernelRun.lean ====
/-
  The idealized kernel's run with its result array named.

  The program is nine segments: three stretches of host operations, the first dense product, a stretch of host operations,
  the bias-and-clip region, the second dense product, a stretch of host operations, the bias-and-log-softmax region. Each
  segment takes the buffers' contents at its start to the contents at its end, and the contents after the last region
  are the fold `W9` of those steps from the launch memory. Every weakly fair execution terminates with every
  unscoped buffer at that fold: the frame statement reads the six argument buffers there; here the result buffer is read there
  too, so that its contents can be computed segment by segment.
-/
import proofs.«114538_j73581379715703_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates, nothing faulting, with the
    result buffer at the last boundary's contents and the argument buffers as launched. -/
theorem run_named : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Named

end
-- ==== Proof.HostStages.lean ====
/-
  The message-passing step that both programs apply on the host, as one function of the edge list and of the node features.

  With `row`, `col` the source and target lists of the graph's edges followed by one self-loop per node, and `norm` the
  product of the inverse square roots of the two endpoints' degrees, a propagation step gathers the features of each edge's
  source, scales them by the edge's `norm`, and adds them into the edge's target: a gather, a product and a scatter-add.
  The edge lists and `norm` depend on the edge-index argument only; the step is stated here with the features as its
  other argument, once for sixteen features per node and once for a hundred and twenty-eight, so that the two programs'
  layers can be compared by comparing the features going in. The reference's stages are this function of its dense products.
-/
import proofs.«114538_j73581379715703_1_alg».proof.Proof.RefRead

noncomputable section

namespace Cert.GcnHost

open Cert.ReferenceIdeal Cert.ReferenceIdeal.ReadP Idealize.ShloMosaic

/-- One propagation step over sixteen features per node: gather by source, scale by the edge's weight, add into the target. -/
def propagate16 (x1 : (⟨S2x600000, .i32⟩ : BufTy).Contents (Elt Ideal)) (h : FVec Ideal S50000x16 .f32) :
    FVec Ideal S50000x16 .f32 :=
  Host.scatterAdd scatter_S50000x16_S650000x1_S650000x16_1_0_0_1 (val_main_v41 (F := Ideal)) (val_main_v42 (F := Ideal) x1)
    (mulf (Host.gather gather_S50000x16_S650000x1_S650000x16_1_0_n_n_0_1_116 h (val_main_v36 (F := Ideal) x1)) (val_main_v39 (F := Ideal) x1))

/-- The same step over a hundred and twenty-eight features per node. -/
def propagate128 (x1 : (⟨S2x600000, .i32⟩ : BufTy).Contents (Elt Ideal)) (h : FVec Ideal S50000x128 .f32) :
    FVec Ideal S50000x128 .f32 :=
  Host.scatterAdd scatter_S50000x128_S650000x1_S650000x128_1_0_0_1 (val_main_v59 (F := Ideal)) (val_main_v60 (F := Ideal) x1)
    (mulf (Host.gather gather_S50000x128_S650000x1_S650000x128_1_0_n_n_0_1_1128 h (val_main_v54 (F := Ideal) x1)) (val_main_v57 (F := Ideal) x1))

/-- The reference's first aggregation is the step applied to its first dense product. -/
theorem val_main_v43_eq (x0 : (⟨S50000x128, .f32⟩ : BufTy).Contents (Elt Ideal)) (x1 : (⟨S2x600000, .i32⟩ : BufTy).Contents (Elt Ideal))
    (x2 : (⟨S128x16, .f32⟩ : BufTy).Contents (Elt Ideal)) :
    val_main_v43 (F := Ideal) x0 x1 x2 = propagate16 x1 (val_main_v30 (F := Ideal) x0 x2) := rfl

/-- The reference's second aggregation is the step applied to its second dense product. -/
theorem val_main_v61_eq (x0 : (⟨S50000x128, .f32⟩ : BufTy).Contents (Elt Ideal)) (x1 : (⟨S2x600000, .i32⟩ : BufTy).Contents (Elt Ideal))
    (x2 : (⟨S128x16, .f32⟩ : BufTy).Contents (Elt Ideal)) (x3 : (⟨S16, .f32⟩ : BufTy).Contents (Elt Ideal))
    (x4 : (⟨S16x128, .f32⟩ : BufTy).Contents (Elt Ideal)) :
    val_main_v61 (F := Ideal) x0 x1 x2 x3 x4 = propagate128 x1 (val_main_v48 (F := Ideal) x0 x1 x2 x3 x4) := rfl

end Cert.GcnHost

end
-- ==== Proof.KernelHost.lean ====
/-
  The idealized kernel's host stretches, read.

  Before the first region the host computes, from the edge-index argument alone, the edge lists `row` and `col` (the
  argument's two rows, each followed by one self-loop per node) and the edge weights `norm`: the same operations, in the
  same order, as the reference's, so their values are the reference's stages of that argument. Between the regions it runs one
  propagation step on the region's result (gather by source, scale, scatter-add into the target) and views the bias vector
  as a row. No host operation writes an argument buffer, and the later stretches leave the edge lists and weights alone.
-/
import proofs.«114538_j73581379715703_1_alg».proof.Proof.Gen.KernelIdeal.Frame
import proofs.«114538_j73581379715703_1_alg».proof.Proof.HostStages

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo
open Cert.ReferenceIdeal.ReadP (val_main_v3 val_main_v6 val_main_v29 val_main_v12 val_main_v13 val_main_v14 val_main_cst_2)
open Cert.GcnHost (propagate16 propagate128)

variable (W : Valuation τ sig (Elt Ideal))

/-! ## The three stretches before the first region -/

/-- The source list: the edge index's first row, then the nodes. -/
theorem row_eq : after hostOps0_2 (after hostOps0_1 (after hostOps0 W)) (Proc.devRef .tc main_v3)
    = val_main_v3 (F := Ideal) (W (Proc.devRef .tc main_arg1)) := by
  simp only [hostOps0_2, hostOps0_1, hostOps0]
  after_results_simp
  rfl

/-- The target list: the edge index's second row, then the nodes. -/
theorem col_eq : after hostOps0_2 (after hostOps0_1 (after hostOps0 W)) (Proc.devRef .tc main_v6)
    = val_main_v6 (F := Ideal) (W (Proc.devRef .tc main_arg1)) := by
  simp only [hostOps0_2, hostOps0_1, hostOps0]
  after_results_simp
  rfl

/-- The first stretch leaves, per node, whether its degree is positive and the inverse square root of its degree, and the
    zero that stands in where the degree is not positive. -/
theorem deg_stage : after hostOps0 W (Proc.devRef .tc main_v12) = val_main_v12 (F := Ideal) (W (Proc.devRef .tc main_arg1))
    ∧ after hostOps0 W (Proc.devRef .tc main_v13) = val_main_v13 (F := Ideal) (W (Proc.devRef .tc main_arg1))
    ∧ after hostOps0 W (Proc.devRef .tc main_cst_2) = val_main_cst_2 (F := Ideal)
    ∧ after hostOps0 W (Proc.devRef .tc main_v3) = val_main_v3 (F := Ideal) (W (Proc.devRef .tc main_arg1))
    ∧ after hostOps0 W (Proc.devRef .tc main_v6) = val_main_v6 (F := Ideal) (W (Proc.devRef .tc main_arg1)) := by
  refine ⟨?_, ?_, ?_, ?_, ?_⟩ <;>
  · simp only [hostOps0]
    after_results_simp
    rfl

/-- The second stretch selects, per node, the inverse square root where the degree is positive and zero elsewhere, and leaves
    the edge lists alone. -/
theorem where_stage (x1 : (⟨Cert.ReferenceIdeal.S2x600000, .i32⟩ : BufTy).Contents (Elt Ideal))
    (h12 : W (Proc.devRef .tc main_v12) = val_main_v12 (F := Ideal) x1) (h13 : W (Proc.devRef .tc main_v13) = val_main_v13 (F := Ideal) x1)
    (hc : W (Proc.devRef .tc main_cst_2) = val_main_cst_2 (F := Ideal)) :
    after hostOps0_1 W (Proc.devRef .tc main_v14) = val_main_v14 (F := Ideal) x1 := by
  simp only [hostOps0_1]
  after_results_simp
  simp only [TRef.ofBuf, TRef.toBuf, cast_cast, cast_eq]
  rw [h12, h13, hc]
  rfl

theorem where_keeps (r : Ref sig .tc) (hr : r = main_v3 ∨ r = main_v6) :
    after hostOps0_1 W (Proc.devRef .tc r) = W (Proc.devRef .tc r) := by
  rcases hr with rfl | rfl <;>
  · simp only [hostOps0_1]
    after_results_simp

/-- The third stretch gathers the two endpoints' factors along the edge lists and multiplies them. -/
theorem norm_stage (x1 : (⟨Cert.ReferenceIdeal.S2x600000, .i32⟩ : BufTy).Contents (Elt Ideal))
    (h3 : W (Proc.devRef .tc main_v3) = val_main_v3 (F := Ideal) x1) (h6 : W (Proc.devRef .tc main_v6) = val_main_v6 (F := Ideal) x1)
    (h14 : W (Proc.devRef .tc main_v14) = val_main_v14 (F := Ideal) x1) :
    after hostOps0_2 W (Proc.devRef .tc main_v29) = val_main_v29 (F := Ideal) x1 := by
  simp only [hostOps0_2]
  after_results_simp
  rw [h3, h6, h14]
  rfl

/-- The edge weights: the product of the inverse square roots of the two endpoints' degrees (zero at degree zero). -/
theorem norm_eq : after hostOps0_2 (after hostOps0_1 (after hostOps0 W)) (Proc.devRef .tc main_v29)
    = val_main_v29 (F := Ideal) (W (Proc.devRef .tc main_arg1)) := by
  obtain ⟨h12, h13, hc, h3, h6⟩ := deg_stage W
  generalize after hostOps0 W = W1 at h12 h13 hc h3 h6 ⊢
  have h14 := where_stage W1 _ h12 h13 hc
  have k := where_keeps W1
  generalize after hostOps0_1 W1 = W2 at h14 k ⊢
  exact norm_stage W2 _ ((k main_v3 (by simp)).trans h3) ((k main_v6 (by simp)).trans h6) h14

/-- The three stretches write no argument buffer. -/
theorem pre_keeps (r : Ref sig .tc) (hr : r = main_arg0 ∨ r = main_arg2 ∨ r = main_arg3 ∨ r = main_arg4 ∨ r = main_arg5) :
    after hostOps0_2 (after hostOps0_1 (after hostOps0 W)) (Proc.devRef .tc r) = W (Proc.devRef .tc r) := by
  rcases hr with rfl | rfl | rfl | rfl | rfl <;>
  · simp only [hostOps0_2, hostOps0_1, hostOps0]
    after_results_simp

/-! ## The stretch between the first and the second region -/

set_option maxHeartbeats 4000000 in
/-- With the edge lists and weights in place, the stretch leaves one propagation step of the first region's result. -/
theorem agg16_eq (x1 : (⟨Cert.ReferenceIdeal.S2x600000, .i32⟩ : BufTy).Contents (Elt Ideal))
    (h3 : W (Proc.devRef .tc main_v3) = val_main_v3 (F := Ideal) x1) (h6 : W (Proc.devRef .tc main_v6) = val_main_v6 (F := Ideal) x1)
    (h29 : W (Proc.devRef .tc main_v29) = val_main_v29 (F := Ideal) x1) :
    after hostOps1 W (Proc.devRef .tc main_v43) = propagate16 x1 (W (Proc.devRef .tc main_v30)) := by
  simp only [hostOps1]
  after_results_simp
  rw [h3, h6, h29]
  rfl

/-- … and the first bias vector viewed as a one-row array. -/
theorem bias16_row : after hostOps1 W (Proc.devRef .tc main_v44)
    = shapeCast S1x16 (W (Proc.devRef .tc main_arg3)) shapeCasts_S16_S1x16 := by
  simp only [hostOps1]
  after_results_simp
  rfl

/-- It writes neither the edge lists, the weights, nor an argument it does not read. -/
theorem mid_keeps (r : Ref sig .tc) (hr : r = main_v3 ∨ r = main_v6 ∨ r = main_v29 ∨ r = main_arg4 ∨ r = main_arg5) :
    after hostOps1 W (Proc.devRef .tc r) = W (Proc.devRef .tc r) := by
  rcases hr with rfl | rfl | rfl | rfl | rfl <;>
  · simp only [hostOps1]
    after_results_simp

/-! ## The stretch before the last region -/

set_option maxHeartbeats 4000000 in
/-- One propagation step of the third region's result. -/
theorem agg128_eq (x1 : (⟨Cert.ReferenceIdeal.S2x600000, .i32⟩ : BufTy).Contents (Elt Ideal))
    (h3 : W (Proc.devRef .tc main_v3) = val_main_v3 (F := Ideal) x1) (h6 : W (Proc.devRef .tc main_v6) = val_main_v6 (F := Ideal) x1)
    (h29 : W (Proc.devRef .tc main_v29) = val_main_v29 (F := Ideal) x1) :
    after hostOps3 W (Proc.devRef .tc main_v59) = propagate128 x1 (W (Proc.devRef .tc main_v46)) := by
  simp only [hostOps3]
  after_results_simp
  rw [h3, h6, h29]
  rfl

/-- … and the second bias vector viewed as a one-row array. -/
theorem bias128_row : after hostOps3 W (Proc.devRef .tc main_v60)
    = shapeCast S1x128 (W (Proc.devRef .tc main_arg5)) shapeCasts_S128_S1x128 := by
  simp only [hostOps3]
  after_results_simp
  rfl

end Cert.KernelIdeal.HostSide

end
-- ==== Proof.Spec.lean ====
/-
  The four dense stages of a two-layer graph convolution, as whole-array functions on the extended reals.

  Each is stated index by index over literal rank-2 shapes `[n, f]`. A row of the result depends on the same row of the
  first operand and on all of the second: a dense product `x · w`; a bias added to every row and clipped below at zero;
  a bias added to every row followed by the row's log-softmax, written as jax writes it: subtract the row's maximum, then
  subtract the logarithm of the sum of the exponentials of what is left.
-/
import Idealize.ShloMosaic.PureOps.Ideal
import Idealize.ShloMosaic.Lib.ValueIdx

noncomputable section

namespace Cert.GcnSpec

open Idealize.ShloMosaic Idealize.ShloMosaic.ValueIdx

/-- The first coordinate of a rank-2 index, as an element of `Fin n`. -/
abbrev rowOf {n f : ℕ} (i : (⟨2, ![n, f]⟩ : Shape).Idx) : Fin n := ⟨(i 0).val, idx2_lt0 i⟩
/-- The second coordinate of a rank-2 index, as an element of `Fin f`. -/
abbrev colOf {n f : ℕ} (i : (⟨2, ![n, f]⟩ : Shape).Idx) : Fin f := ⟨(i 1).val, idx2_lt1 i⟩

/-- The dense product: entry `(r, q)` is the sum over `j` of `x[r, j] · w[j, q]`. -/
def dense {n k f : ℕ} (x : FVec Ideal ⟨2, ![n, k]⟩ .f32) (w : FVec Ideal ⟨2, ![k, f]⟩ .f32) : FVec Ideal ⟨2, ![n, f]⟩ .f32 :=
  fun i => ∑ j : Fin k, x (ix2 (rowOf i) j) * w (ix2 j (colOf i))

theorem dense_apply {n k f : ℕ} (x : FVec Ideal ⟨2, ![n, k]⟩ .f32) (w : FVec Ideal ⟨2, ![k, f]⟩ .f32) (r : Fin n) (q : Fin f) :
    dense x w (ix2 r q) = ∑ j : Fin k, x (ix2 r j) * w (ix2 j q) := rfl

/-- A `[1, f]` bias added to every row of an `[n, f]` array. -/
def addBias {n f : ℕ} (a : FVec Ideal ⟨2, ![n, f]⟩ .f32) (b : FVec Ideal ⟨2, ![1, f]⟩ .f32) : FVec Ideal ⟨2, ![n, f]⟩ .f32 :=
  fun i => a i + b (ix2 (0 : Fin 1) (colOf i))

theorem addBias_apply {n f : ℕ} (a : FVec Ideal ⟨2, ![n, f]⟩ .f32) (b : FVec Ideal ⟨2, ![1, f]⟩ .f32) (r : Fin n) (q : Fin f) :
    addBias a b (ix2 r q) = a (ix2 r q) + b (ix2 (0 : Fin 1) q) := rfl

/-- Bias, then the maximum with the f32 zero word's value. -/
def biasRelu {n f : ℕ} (a : FVec Ideal ⟨2, ![n, f]⟩ .f32) (b : FVec Ideal ⟨2, ![1, f]⟩ .f32) : FVec Ideal ⟨2, ![n, f]⟩ .f32 :=
  fun i => max (addBias a b i) (Ideal.ofBits .f32 0x00000000#32)

theorem biasRelu_apply {n f : ℕ} (a : FVec Ideal ⟨2, ![n, f]⟩ .f32) (b : FVec Ideal ⟨2, ![1, f]⟩ .f32) (r : Fin n) (q : Fin f) :
    biasRelu a b (ix2 r q) = max (a (ix2 r q) + b (ix2 (0 : Fin 1) q)) (Ideal.ofBits .f32 0x00000000#32) := rfl

/-- The maximum of row `r`, folded from the value of the f32 word of minus infinity. -/
def rowMax {n f : ℕ} (v : FVec Ideal ⟨2, ![n, f]⟩ .f32) (r : Fin n) : EReal :=
  (Finset.univ : Finset (Fin f)).fold max (Ideal.ofBits .f32 0xFF800000#32) (fun j => v (ix2 r j))

/-- The sum over row `r` of the exponentials of the entries less the row's maximum. -/
def rowExpSum {n f : ℕ} (v : FVec Ideal ⟨2, ![n, f]⟩ .f32) (r : Fin n) : EReal :=
  ∑ j : Fin f, Ideal.exp (v (ix2 r j) - rowMax v r)

/-- The log-softmax of every row: `(v − max) − log Σ exp (v − max)`. -/
def logSoftmax {n f : ℕ} (v : FVec Ideal ⟨2, ![n, f]⟩ .f32) : FVec Ideal ⟨2, ![n, f]⟩ .f32 :=
  fun i => (v i - rowMax v (rowOf i)) - Ideal.log (rowExpSum v (rowOf i))

theorem logSoftmax_apply {n f : ℕ} (v : FVec Ideal ⟨2, ![n, f]⟩ .f32) (r : Fin n) (q : Fin f) :
    logSoftmax v (ix2 r q) = (v (ix2 r q) - rowMax v r) - Ideal.log (rowExpSum v r) := rfl

/-- Bias, then the rows' log-softmax. -/
def biasLogSoftmax {n f : ℕ} (a : FVec Ideal ⟨2, ![n, f]⟩ .f32) (b : FVec Ideal ⟨2, ![1, f]⟩ .f32) : FVec Ideal ⟨2, ![n, f]⟩ .f32 :=
  logSoftmax (addBias a b)

/-- Folding `max` from a start value never goes below it: taking the maximum with the start value again changes nothing. -/
theorem max_fold_max {ι : Type} [DecidableEq ι] (s : Finset ι) (b : EReal) (g : ι → EReal) :
    max b (s.fold max b g) = s.fold max b g := by
  induction s using Finset.induction_on with
  | empty => simp
  | insert a s ha ih =>
    rw [Finset.fold_insert ha, ← max_assoc, max_comm b (g a), max_assoc, ih]

end Cert.GcnSpec

end
-- ==== Proof.RefBridge.lean ====
/-
  The reference's dense stages are the specification's functions.

  Read index by index: its two `dot_general`s are dense products (one contracted axis, summed over its coordinate); its
  bias is the `[f]` argument viewed as a `[1, f]` row and added to every row; its relu is the maximum with the zero word; its
  log-softmax takes the row maximum by a fold of `max` from minus infinity (and once more the maximum with minus infinity, which changes
  nothing), subtracts it, and subtracts the logarithm of the row's sum of exponentials, the sum starting from the zero word.
-/
import proofs.«114538_j73581379715703_1_alg».proof.Proof.RefRead
import proofs.«114538_j73581379715703_1_alg».proof.Proof.Spec
import Idealize.ShloMosaic.Lib.ValueLayout
import Idealize.ShloMosaic.PureOps.Ideal.Laws

noncomputable section

namespace Cert.GcnRef

open Cert.ReferenceIdeal Cert.ReferenceIdeal.Gen Cert.ReferenceIdeal.ReadP Idealize.ShloMosaic Idealize.ShloMosaic.ValueIdx Cert.GcnSpec

/-- The first `dot_general` is the dense product of the node features with the first weight matrix. -/
theorem val_main_v30_dense (x0 : (⟨S50000x128, .f32⟩ : BufTy).Contents (Elt Ideal)) (x2 : (⟨S128x16, .f32⟩ : BufTy).Contents (Elt Ideal)) :
    val_main_v30 (F := Ideal) x0 x2 = dense x0 x2 := by
  funext i
  obtain ⟨r, q, rfl⟩ : ∃ (r : Fin 50000) (q : Fin 16), i = ix2 r q := ⟨i 0, i 1, eq_ix2 i⟩
  rw [val_main_v30_apply, dense_apply]
  refine Finset.sum_congr rfl fun k _ => ?_
  have el : lidx_main_v30 (ix2 r q) k = ix2 r k := funext fun a => Fin.ext (by match a with | ⟨0, _⟩ => rfl | ⟨1, _⟩ => rfl)
  have er : ridx_main_v30 (ix2 r q) k = ix2 k q := funext fun a => Fin.ext (by match a with | ⟨0, _⟩ => rfl | ⟨1, _⟩ => rfl)
  rw [el, er]

/-- The second `dot_general` is the dense product of the hidden features with the second weight matrix. -/
theorem val_main_v48_dense (x0 : (⟨S50000x128, .f32⟩ : BufTy).Contents (Elt Ideal)) (x1 : (⟨S2x600000, .i32⟩ : BufTy).Contents (Elt Ideal)) (x2 : (⟨S128x16, .f32⟩ : BufTy).Contents (Elt Ideal)) (x3 : (⟨S16, .f32⟩ : BufTy).Contents (Elt Ideal)) (x4 : (⟨S16x128, .f32⟩ : BufTy).Contents (Elt Ideal)) :
    val_main_v48 (F := Ideal) x0 x1 x2 x3 x4 = dense (val_main_v47 (F := Ideal) x0 x1 x2 x3) x4 := by
  funext i
  obtain ⟨r, q, rfl⟩ : ∃ (r : Fin 50000) (q : Fin 128), i = ix2 r q := ⟨i 0, i 1, eq_ix2 i⟩
  rw [val_main_v48_apply, dense_apply]
  refine Finset.sum_congr rfl fun k _ => ?_
  have el : lidx_main_v48 (ix2 r q) k = ix2 r k := funext fun a => Fin.ext (by match a with | ⟨0, _⟩ => rfl | ⟨1, _⟩ => rfl)
  have er : ridx_main_v48 (ix2 r q) k = ix2 k q := funext fun a => Fin.ext (by match a with | ⟨0, _⟩ => rfl | ⟨1, _⟩ => rfl)
  rw [el, er]

/-- A `[16]` bias cast to a `[1, 16]` row is the same row the reference makes by broadcasting along a new leading axis. -/
theorem bias16_eq (x3 : (⟨S16, .f32⟩ : BufTy).Contents (Elt Ideal)) (h : S16.ShapeCasts S1x16) :
    shapeCast S1x16 x3 h = val_main_v44 (F := Ideal) x3 := by
  funext j
  obtain ⟨u, q, rfl⟩ : ∃ (u : Fin 1) (q : Fin 16), j = ix2 u q := ⟨j 0, j 1, eq_ix2 j⟩
  rw [val_main_v44_apply]
  refine (shapeCast_a_1a_apply x3 h u q).trans ?_
  exact congrArg x3 (funext fun a => Fin.ext (by match a with | ⟨0, _⟩ => rfl))

/-- The same for the `[128]` bias of the second layer. -/
theorem bias128_eq (x5 : (⟨S128, .f32⟩ : BufTy).Contents (Elt Ideal)) (h : S128.ShapeCasts S1x128) :
    shapeCast S1x128 x5 h = val_main_v62 (F := Ideal) x5 := by
  funext j
  obtain ⟨u, q, rfl⟩ : ∃ (u : Fin 1) (q : Fin 128), j = ix2 u q := ⟨j 0, j 1, eq_ix2 j⟩
  rw [val_main_v62_apply]
  refine (shapeCast_a_1a_apply x5 h u q).trans ?_
  exact congrArg x5 (funext fun a => Fin.ext (by match a with | ⟨0, _⟩ => rfl))

/-- The first layer's output: the aggregated features plus the bias row, clipped below at zero. -/
theorem val_main_v47_biasRelu (x0 : (⟨S50000x128, .f32⟩ : BufTy).Contents (Elt Ideal)) (x1 : (⟨S2x600000, .i32⟩ : BufTy).Contents (Elt Ideal)) (x2 : (⟨S128x16, .f32⟩ : BufTy).Contents (Elt Ideal)) (x3 : (⟨S16, .f32⟩ : BufTy).Contents (Elt Ideal)) :
    val_main_v47 (F := Ideal) x0 x1 x2 x3 = biasRelu (val_main_v43 (F := Ideal) x0 x1 x2) (val_main_v44 (F := Ideal) x3) := by
  funext i
  obtain ⟨r, q, rfl⟩ : ∃ (r : Fin 50000) (q : Fin 16), i = ix2 r q := ⟨i 0, i 1, eq_ix2 i⟩
  rw [val_main_v47_apply, val_main_v46_apply, val_main_v45_apply, val_main_call1_v0_apply, val_main_call1_cst_apply, biasRelu_apply]
  have e : idx_main_v45 (ix2 r q) = ix2 (0 : Fin 1) q := funext fun a => Fin.ext (by match a with | ⟨0, _⟩ => rfl | ⟨1, _⟩ => rfl)
  rw [e]
  rfl

/-- The second layer's pre-activation: the aggregated features plus the bias row. -/
theorem val_main_v64_addBias (x0 : (⟨S50000x128, .f32⟩ : BufTy).Contents (Elt Ideal)) (x1 : (⟨S2x600000, .i32⟩ : BufTy).Contents (Elt Ideal)) (x2 : (⟨S128x16, .f32⟩ : BufTy).Contents (Elt Ideal)) (x3 : (⟨S16, .f32⟩ : BufTy).Contents (Elt Ideal)) (x4 : (⟨S16x128, .f32⟩ : BufTy).Contents (Elt Ideal)) (x5 : (⟨S128, .f32⟩ : BufTy).Contents (Elt Ideal)) :
    val_main_v64 (F := Ideal) x0 x1 x2 x3 x4 x5 = addBias (val_main_v61 (F := Ideal) x0 x1 x2 x3 x4) (val_main_v62 (F := Ideal) x5) := by
  funext i
  obtain ⟨r, q, rfl⟩ : ∃ (r : Fin 50000) (q : Fin 128), i = ix2 r q := ⟨i 0, i 1, eq_ix2 i⟩
  rw [val_main_v64_apply, val_main_v63_apply, addBias_apply]
  have e : idx_main_v63 (ix2 r q) = ix2 (0 : Fin 1) q := funext fun a => Fin.ext (by match a with | ⟨0, _⟩ => rfl | ⟨1, _⟩ => rfl)
  rw [e]
  rfl

/-- The host's maximum over the lanes of row `r`, from minus infinity, is the specification's row maximum. -/
theorem hostRowMax (v : FVec Ideal ⟨2, ![50000, 128]⟩ .f32) (r : Fin 50000) :
    Host.reduce FloatOps.maximumf v (constant (F := Ideal) S_ .f32 0xFF800000#32) reducesTo_S50000x128_S50000_d1 h_S_ (ix1 r)
      = rowMax v r := by
  rw [Host.reduce_eq_fold_single FloatOps.maximumf v _ reducesTo_S50000x128_S50000_d1 (by decide) h_S_]
  have e : (v ∘ (Shape.Reduces.lift (by decide : S50000x128.Reduces [1] S50000) (ix1 r))) = fun j : Fin 128 => v (ix2 r j) :=
    funext fun k => congrArg v (funext fun a => Fin.ext (by match a with | ⟨0, _⟩ => rfl | ⟨1, _⟩ => rfl))
  rw [e]
  rfl

/-- The reference's result is the row log-softmax of its second layer's pre-activation. -/
theorem val_main_v65_logSoftmax (x0 : (⟨S50000x128, .f32⟩ : BufTy).Contents (Elt Ideal)) (x1 : (⟨S2x600000, .i32⟩ : BufTy).Contents (Elt Ideal)) (x2 : (⟨S128x16, .f32⟩ : BufTy).Contents (Elt Ideal)) (x3 : (⟨S16, .f32⟩ : BufTy).Contents (Elt Ideal)) (x4 : (⟨S16x128, .f32⟩ : BufTy).Contents (Elt Ideal)) (x5 : (⟨S128, .f32⟩ : BufTy).Contents (Elt Ideal)) :
    val_main_v65 (F := Ideal) x0 x1 x2 x3 x4 x5 = logSoftmax (val_main_v64 (F := Ideal) x0 x1 x2 x3 x4 x5) := by
  have hmax : ∀ r : Fin 50000, val_main_call2_v2 (F := Ideal) x0 x1 x2 x3 x4 x5 (ix1 r) = rowMax (val_main_v64 (F := Ideal) x0 x1 x2 x3 x4 x5) r := by
    intro r
    rw [val_main_call2_v2_apply, val_main_call2_v1_apply, val_main_call2_cst_0_apply]
    unfold val_main_call2_v0
    rw [show val_main_call2_cst (F := Ideal) = constant (F := Ideal) S_ .f32 0xFF800000#32 from rfl, hostRowMax]
    unfold rowMax
    exact max_fold_max _ _ _
  have h4 : ∀ (r : Fin 50000) (q : Fin 128), val_main_call2_v4 (F := Ideal) x0 x1 x2 x3 x4 x5 (ix2 r q) = rowMax (val_main_v64 (F := Ideal) x0 x1 x2 x3 x4 x5) r := by
    intro r q
    rw [val_main_call2_v4_apply, val_main_call2_v3_apply]
    have e : idx_main_call2_v3 (idx_main_call2_v4 (ix2 r q)) = ix1 r := funext fun a => Fin.ext (by match a with | ⟨0, _⟩ => rfl)
    rw [e, hmax]
  have h5 : ∀ (r : Fin 50000) (q : Fin 128), val_main_call2_v5 (F := Ideal) x0 x1 x2 x3 x4 x5 (ix2 r q)
      = val_main_v64 (F := Ideal) x0 x1 x2 x3 x4 x5 (ix2 r q) - rowMax (val_main_v64 (F := Ideal) x0 x1 x2 x3 x4 x5) r := by
    intro r q
    rw [val_main_call2_v5_apply, h4]
    rfl
  have h7 : ∀ r : Fin 50000, val_main_call2_v7 (F := Ideal) x0 x1 x2 x3 x4 x5 (ix1 r) = rowExpSum (val_main_v64 (F := Ideal) x0 x1 x2 x3 x4 x5) r := by
    intro r
    rw [val_main_call2_v7_apply, val_main_call2_cst_1_apply]
    unfold rowExpSum
    rw [show FloatOps.ofBits (F := Ideal) .f32 0x00000000#32 = 0 from Ideal.ofBits_zero_f32, zero_add]
    refine Finset.sum_congr rfl fun k _ => ?_
    have e : idx_main_call2_v7 (ix1 r) k = ix2 r k := funext fun a => Fin.ext (by match a with | ⟨0, _⟩ => rfl | ⟨1, _⟩ => rfl)
    rw [e, val_main_call2_v6_apply, h5]
    exact Ideal.hostUnary_exp_def _
  funext i
  obtain ⟨r, q, rfl⟩ : ∃ (r : Fin 50000) (q : Fin 128), i = ix2 r q := ⟨i 0, i 1, eq_ix2 i⟩
  rw [val_main_v65_apply, h5, val_main_call2_v10_apply, val_main_call2_v9_apply, val_main_call2_v8_apply]
  have e : idx_main_call2_v8 (idx_main_call2_v10 (ix2 r q)) = ix1 r := funext fun a => Fin.ext (by match a with | ⟨0, _⟩ => rfl)
  rw [e, h7, logSoftmax_apply, Ideal.hostUnary_log_def]
  exact Ideal.subf_def _ _

end Cert.GcnRef

end
-- ==== Proof.Region0.lean ====
/- The first dense stage. Each of the ten grid points multiplies its block of 5000 rows of the [50000,128] operand with the
   whole [128,16] operand and writes the [5000,16] product back as the same rows of the result. Row p of a block's product needs
   only row p of that block, so the ten blocks are the row blocks of the whole-array product, and they tile the result. -/
import proofs.«114538_j73581379715703_1_alg».proof.Proof.Gen.KernelIdeal.Frame
import proofs.«114538_j73581379715703_1_alg».proof.Proof.Spec
import Idealize.ShloMosaic.Lib.Pipeline.Value
import Idealize.ShloMosaic.Lib.ValueIdx
import Idealize.ShloMosaic.Lib.ValueLayout
import Idealize.ShloMosaic.PureOps.Ideal.Laws
noncomputable section
open Idealize.ShloMosaic Idealize.ShloMosaic.TcCoe Idealize.SL.Sem Idealize.ShloMosaic.ValueIdx
open Idealize.ShloMosaic.Pipeline (Dat)
namespace Cert.KernelIdeal.Region0
open Cert.KernelIdeal Cert.KernelIdeal.Gen

/-- The two zero offsets of a whole-buffer rectangle, as the constant function. -/
theorem zero_offsets : (![0, 0] : Fin 2 → Nat) = fun _ => 0 := funext fun a => by fin_cases a <;> rfl

/-- The left operand's row coordinate at an output index is the output's row. -/
theorem lhs_row (i : S5000x16.Idx) (k : dot_S5000x128_S128x16_S5000x16_1_0_0_1_n_n.contr.Idx) :
    (dot_S5000x128_S128x16_S5000x16_1_0_0_1_n_n.lhsIdx i k 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl

/-- The right operand's column coordinate at an output index is the output's column. -/
theorem rhs_col (i : S5000x16.Idx) (k : dot_S5000x128_S128x16_S5000x16_1_0_0_1_n_n.contr.Idx) :
    (dot_S5000x128_S128x16_S5000x16_1_0_0_1_n_n.rhsIdx i k 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- The block's product at (p, q): the sum over the contracted axis of row p of the left block times column q of the
    right one. Rounding the operands to bf16 is the identity on the extended reals, and the accumulator is zero. -/
theorem pay_apply (x0 : Vec Ideal S5000x128 .f32) (x1 : Vec Ideal S128x16 .f32) (p : Fin 5000) (q : Fin 16) :
    k0_pay1 x0 x1 (ix2 p q) = ∑ j : Fin 128, x0 (ix2 p j) * x1 (ix2 j q) := by
  unfold k0_pay1
  refine (Ideal.matmul_constant_zero_apply dot_S5000x128_S128x16_S5000x16_1_0_0_1_n_n none _ _ (ix2 p q)).trans ?_
  rw [← Equiv.sum_comp (contrEquiv1 dot_S5000x128_S128x16_S5000x16_1_0_0_1_n_n 128 rfl rfl).symm]
  refine Finset.sum_congr rfl fun k _ => ?_
  have hk := contrEquiv1_symm_val dot_S5000x128_S128x16_S5000x16_1_0_0_1_n_n 128 rfl rfl k
  have el : dot_S5000x128_S128x16_S5000x16_1_0_0_1_n_n.lhsIdx (ix2 p q) ((contrEquiv1 dot_S5000x128_S128x16_S5000x16_1_0_0_1_n_n 128 rfl rfl).symm k) = ix2 p k := funext fun a => Fin.ext (by
    match a with
    | ⟨0, _⟩ => exact lhs_row _ _
    | ⟨1, _⟩ => exact (dot_S5000x128_S128x16_S5000x16_1_0_0_1_n_n.lhsIdx_val_of_single rfl _ _).trans hk)
  have er : dot_S5000x128_S128x16_S5000x16_1_0_0_1_n_n.rhsIdx (ix2 p q) ((contrEquiv1 dot_S5000x128_S128x16_S5000x16_1_0_0_1_n_n 128 rfl rfl).symm k) = ix2 k q := funext fun a => Fin.ext (by
    match a with
    | ⟨0, _⟩ => exact (dot_S5000x128_S128x16_S5000x16_1_0_0_1_n_n.rhsIdx_val_of_single rfl _ _).trans hk
    | ⟨1, _⟩ => exact rhs_col _ _)
  rw [el, er]
  rfl

/-- Row p of the block product needs only row p of the left block and the whole right block: if those agree with row r of
    a whole left array and with a whole right array, the block's entry (p, q) is the whole-array product's entry (r, q). -/
theorem block_dense (x0 : Vec Ideal S5000x128 .f32) (x1 : Vec Ideal S128x16 .f32)
    (A : FVec Ideal S50000x128 .f32) (B : FVec Ideal S128x16 .f32) (j : S5000x16.Idx) (i : S50000x16.Idx)
    (h0 : ∀ k : Fin 128, x0 (ix2 (Cert.GcnSpec.rowOf j) k) = A (ix2 (Cert.GcnSpec.rowOf i) k))
    (h1 : ∀ k : Fin 128, x1 (ix2 k (Cert.GcnSpec.colOf j)) = B (ix2 k (Cert.GcnSpec.colOf i))) :
    k0_pay1 x0 x1 j = Cert.GcnSpec.dense A B i := by
  have hj : j = ix2 (Cert.GcnSpec.rowOf j) (Cert.GcnSpec.colOf j) :=
    funext fun a => by match a with | ⟨0, _⟩ => rfl | ⟨1, _⟩ => rfl
  refine (congrArg (k0_pay1 x0 x1) hj).trans ((pay_apply x0 x1 _ _).trans ?_)
  exact Finset.sum_congr rfl fun k _ => by rw [h0 k, h1 k]

section Blocks
variable (V : (c : Dev nD) → (b : Ref sig .tc) → Buf (Elt Ideal) ((c : Thread nD τ).loc b))

/-- The block index maps over the ten grid points: the row-block index of the left operand's and of the result's window
    is the point itself; every other block index is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t, at (p, k), is the array at row 5000·t + p, column k. -/
theorem lhs_block (c : Dev nD) (t : Fin cfg0.N) (p : Fin 5000) (k : Fin 128) (r : Fin 50000)
    (hr : r.val = 5000 * t.val + p.val) :
    (iblk0 (F := Ideal) V c 0 t : Vec Ideal S5000x128 .f32) (ix2 p k) = (V c main_arg0 : S50000x128.Idx → EReal) (ix2 r k) := by
  obtain ⟨e0, e1, -⟩ := index_facts t
  have h : ((cfg0.win 0).blk t).view.emb (ix2 p k) = ix2 r k := by
    funext a; apply Fin.ext
    match a with
    | ⟨0, _⟩ => show win0_0.index t (0 : Fin 2) * 5000 + 1 * p.val = r.val; rw [e0, hr]; omega
    | ⟨1, _⟩ => show win0_0.index t (1 : Fin 2) * 128 + 1 * k.val = k.val; rw [e1]; omega
  show V c main_arg0 (((cfg0.win 0).blk t).view.emb (ix2 p k)) = _
  rw [h]

/-- The right operand's block at every point is the whole array. -/
theorem rhs_block (c : Dev nD) (t : Fin cfg0.N) (k : Fin 128) (q q' : Fin 16) (hq : q'.val = q.val) :
    (iblk0 (F := Ideal) V c 1 t : Vec Ideal S128x16 .f32) (ix2 k q) = (V c main_arg2 : S128x16.Idx → EReal) (ix2 k q') := by
  obtain ⟨-, -, e2, e3, -⟩ := index_facts t
  have h : ((cfg0.win 1).blk t).view.emb (ix2 k q) = ix2 k q' := by
    funext a; apply Fin.ext
    match a with
    | ⟨0, _⟩ => show win0_1.index t (0 : Fin 2) * 128 + 1 * k.val = k.val; rw [e2]; omega
    | ⟨1, _⟩ => show win0_1.index t (1 : Fin 2) * 16 + 1 * q.val = q'.val; rw [e3, hq]; omega
  show V c main_arg2 (((cfg0.win 1).blk t).view.emb (ix2 k q)) = _
  rw [h]

/-- What point t writes back is block t of the whole-array product of the two arrays as the region finds them. -/
theorem flushed_eq (c : Dev nD) (t : Fin cfg0.N) :
    (dat0 (F := Ideal) V c).flushed 2 t
      = ((cfg0.win 2).blk t).view.read (Elt Ideal) (Cert.GcnSpec.dense (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x16) zero_offsets]
  obtain ⟨-, -, -, -, e4, e5⟩ := index_facts t
  funext j
  show k0_pay1 (iblk0 V c 0 t) (iblk0 V c 1 t) j
    = Cert.GcnSpec.dense (V c main_arg0) (V c main_arg2) (((cfg0.win 2).blk t).view.emb j)
  refine block_dense _ _ _ _ j _ (fun k => ?_) (fun k => ?_)
  · refine lhs_block V c t _ k _ ?_
    show win0_2.index t (0 : Fin 2) * 5000 + 1 * (j 0).val = 5000 * t.val + (j 0).val
    rw [e4]; omega
  · refine rhs_block V c t k _ _ ?_
    show win0_2.index t (1 : Fin 2) * 16 + 1 * (j 1).val = (j 1).val
    rw [e5]; omega

/-- An index of the result array is in point t's block iff each coordinate is in the block's range on its axis. -/
theorem mem_block (t : Fin cfg0.N) (i : S50000x16.Idx) :
    i ∈ ((cfg0.win 2).blk t).view.set ↔ ∀ a : Fin 2, win0_2.index t a * S5000x16.size a ≤ (i a).val
      ∧ (i a).val < win0_2.index t a * S5000x16.size a + S5000x16.size a := by
  show i ∈ ((View.whole main_v30).slice (win0_2.rect t)).set ↔ _
  rw [View.set_slice_whole, Rect.mem_set_unit]
  exact Iff.rfl

/-- The ten row blocks tile the result: row r lies in the block of point r / 5000. -/
theorem covered (i : S50000x16.Idx) :
    ∃ t : Fin cfg0.N, (cfg0.win 2).flush t = true ∧ i ∈ ((cfg0.win 2).blk t).view.set := by
  have hi0 : (i 0).val < 50000 := idx2_lt0 i
  have hi1 : (i 1).val < 16 := idx2_lt1 i
  have hN : grid0.N = 10 := N_0
  obtain ⟨t, ht⟩ : ∃ t : Fin cfg0.N, t.val = (i 0).val / 5000 :=
    ⟨⟨(i 0).val / 5000, by show (i 0).val / 5000 < grid0.N; rw [hN]; omega⟩, rfl⟩
  obtain ⟨-, -, -, -, e4, e5⟩ := index_facts t
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 16 ≤ (i 1).val ∧ (i 1).val < win0_2.index t (1 : Fin 2) * 16 + 16
    rw [e5]; omega

end Blocks

/-- The result array after the region is the whole-array product of the two arrays the region finds. -/
theorem arr_eq (V : (c : Dev nD) → (b : Ref sig .tc) → Buf (Elt Ideal) ((c : Thread nD τ).loc b)) (c : Dev nD) :
    (dat0 (F := Ideal) V c).arrAt 2 cfg0.N = Cert.GcnSpec.dense (V c main_arg0) (V c main_arg2) :=
  (dat0 (F := Ideal) V c).arrAt_eq_of_cover 2 (Cert.GcnSpec.dense (V c main_arg0) (V c main_arg2))
    (fun t _ => flushed_eq V c t) covered

end Cert.KernelIdeal.Region0
end
-- ==== Proof.Region1.lean ====
/-
  The bias-and-clip stage: each of the ten grid points adds the one bias row to a block of 5000 rows of a
  [50000, 16] array and takes the maximum with the f32 zero word's value, entry by entry.

  Output row p of a block depends only on input row p of the same block and on the bias row, and block t holds
  rows 5000·t … 5000·t + 4999, so every block is the restriction of one whole-array function; the ten blocks are
  written back at every point and tile the array (row r lies in block r / 5000), hence the array ends at that
  function.
-/
import proofs.«114538_j73581379715703_1_alg».proof.Proof.Gen.KernelIdeal.Frame
import proofs.«114538_j73581379715703_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

/-- The zero offsets of a whole-block access, spelt as the constant function. -/
theorem zero_offsets : (![0, 0] : Fin 2 → Nat) = fun _ => 0 := funext fun a => by fin_cases a <;> rfl

/-- The block's arithmetic at entry `(p, q)`: the entry plus the bias row's entry `q`, clipped below at the zero
    word's value. The casts to the same shape are the identity; the bias row is broadcast over the rows. -/
theorem pay_apply (x0 : Vec Ideal S5000x16 .f32) (x1 : Vec Ideal S1x16 .f32) (p : Fin 5000) (q : Fin 16) :
    k1_pay1 x0 x1 (ix2 p q) = max (x0 (ix2 p q) + x1 (ix2 (0 : Fin 1) q)) (Ideal.ofBits .f32 0x00000000#32) := by
  unfold k1_pay1
  simp only [shapeCast_self]
  rw [maximumf_apply, addf_apply, broadcastTo_1b_ab_apply, broadcast_apply]
  rfl

/-- The block indices over the grid: the row-block windows sit at block row `t`, block column 0; the bias window at
    block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The input block at point `t`, entry `(p, j)`, is the array's entry `(5000·t + p, j)`. -/
theorem in_block_apply (c : Dev nD) (t : Fin cfg1.N) (p : Fin 5000) (j : Fin 16) (r : Fin 50000)
    (hr : r.val = 5000 * t.val + p.val) :
    (iblk1 (F := Ideal) V c 0 t : Vec Ideal S5000x16 .f32) (ix2 p j) = (V c main_v43 : S50000x16.Idx → EReal) (ix2 r j) := by
  obtain ⟨e0, e1, -, -, -, -⟩ := idx_facts t
  unfold iblk1
  rw [View.read_apply]
  show V c main_v43 _ = V c main_v43 _
  refine congrArg _ ?_
  funext a
  apply Fin.ext
  match a with
  | ⟨0, _⟩ => show win1_0.index t (0 : Fin 2) * 5000 + 1 * p.val = r.val; omega
  | ⟨1, _⟩ => show win1_0.index t (1 : Fin 2) * 16 + 1 * j.val = j.val; omega

/-- The bias block at any point is the whole bias array. -/
theorem bias_block_apply (c : Dev nD) (t : Fin cfg1.N) (u : Fin 1) (j : Fin 16) :
    (iblk1 (F := Ideal) V c 1 t : Vec Ideal S1x16 .f32) (ix2 u j) = (V c main_v44 : S1x16.Idx → EReal) (ix2 u j) := by
  obtain ⟨-, -, e2, e3, -, -⟩ := idx_facts t
  unfold iblk1
  rw [View.read_apply]
  show V c main_v44 _ = V c main_v44 _
  refine congrArg _ ?_
  funext a
  apply Fin.ext
  match a with
  | ⟨0, _⟩ => show win1_1.index t (0 : Fin 2) * 1 + 1 * u.val = u.val; omega
  | ⟨1, _⟩ => show win1_1.index t (1 : Fin 2) * 16 + 1 * j.val = j.val; omega

/-- Entry `(p, q)` of the output block at point `t` sits in the array at `(5000·t + p, q)`. -/
theorem out_emb (t : Fin cfg1.N) (p : Fin 5000) (q : Fin 16) (r : Fin 50000) (hr : r.val = 5000 * t.val + p.val) :
    ((cfg1.win 2).blk t).view.emb (ix2 p q : S5000x16.Idx) = (ix2 r q : S50000x16.Idx) := by
  obtain ⟨-, -, -, -, e4, e5⟩ := idx_facts t
  funext a
  apply Fin.ext
  match a with
  | ⟨0, _⟩ => show win1_2.index t (0 : Fin 2) * 5000 + 1 * p.val = r.val; omega
  | ⟨1, _⟩ => show win1_2.index t (1 : Fin 2) * 16 + 1 * q.val = q.val; omega

/-- What point `t` writes back is block `t` of the whole-array function. -/
theorem flushed_eq (c : Dev nD) (t : Fin cfg1.N) :
    (dat1 (F := Ideal) V c).flushed 2 t
      = ((cfg1.win 2).blk t).view.read (Elt Ideal) (Cert.GcnSpec.biasRelu (V c main_v43) (V c main_v44)) := by
  show (cfg1.win 2).cut (grid1.coords t) ((dat1 V c).after 2 t) = _
  rw [after1_2]
  unfold out1_2
  rw [View.canon_unit_zero zero_offsets]
  simp only [View.ld_unit_zero (S := S5000x16) zero_offsets, View.ld_unit_zero (S := S1x16) zero_offsets]
  funext j
  obtain ⟨p, q, rfl⟩ : ∃ (p : Fin 5000) (q : Fin 16), j = ix2 p q := ⟨j 0, j 1, eq_ix2 j⟩
  have hN : cfg1.N = 10 := N_1
  have ht : t.val < 10 := by have := t.isLt; omega
  have hb : 5000 * t.val + p.val < 50000 := by have := p.isLt; omega
  show k1_pay1 (iblk1 V c 0 t) (iblk1 V c 1 t) (ix2 p q)
    = Cert.GcnSpec.biasRelu (V c main_v43) (V c main_v44) (((cfg1.win 2).blk t).view.emb (ix2 p q : S5000x16.Idx))
  rw [out_emb t p q ⟨5000 * t.val + p.val, hb⟩ rfl, Cert.GcnSpec.biasRelu_apply]
  refine (pay_apply _ _ p q).trans ?_
  rw [in_block_apply V c t p q ⟨5000 * t.val + p.val, hb⟩ rfl, bias_block_apply V c t 0 q]

/-- An index of the array is in point `t`'s block iff each coordinate is in the block's range on its axis. -/
theorem mem_block (t : Fin cfg1.N) (i : S50000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v45).slice (win1_2.rect t)).set ↔ _
  rw [View.set_slice_whole, Rect.mem_set_unit]
  exact Iff.rfl

/-- Every index of the array lies in the block of the point `row / 5000`, which writes back. -/
theorem cover (i : S50000x16.Idx) :
    ∃ t : Fin cfg1.N, (cfg1.win 2).flush t = true ∧ i ∈ ((cfg1.win 2).blk t).view.set := by
  have hN : grid1.N = 10 := N_1
  have hi0 : (i 0).val < 50000 := (i 0).isLt
  have hi1 : (i 1).val < 16 := (i 1).isLt
  have hlt : (i 0).val / 5000 < grid1.N := by omega
  refine ⟨⟨(i 0).val / 5000, hlt⟩, flush1_2 _, ?_⟩
  obtain ⟨-, -, -, -, e4, e5⟩ := idx_facts ⟨(i 0).val / 5000, hlt⟩
  rw [mem_block]
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hlt⟩ (1 : Fin 2) * 16 ≤ (i 1).val ∧ (i 1).val < win1_2.index ⟨(i 0).val / 5000, hlt⟩ (1 : Fin 2) * 16 + 16
    rw [e5]; omega

/-- The output array after the region: the bias added to every row of the input array, clipped below at zero. -/
theorem arr_eq (V : (c : Dev nD) → (b : Ref sig .tc) → Buf (Elt Ideal) ((c : Thread nD τ).loc b)) (c : Dev nD) :
    (dat1 (F := Ideal) V c).arrAt 2 cfg1.N = Cert.GcnSpec.biasRelu (V c main_v43) (V c main_v44) :=
  (dat1 (F := Ideal) V c).arrAt_eq_of_cover 2 _ (fun t _ => flushed_eq V c t) cover

end Cert.KernelIdeal.Region1

end
-- ==== Proof.Region2.lean ====
/- The second dense stage. Each of the ten grid points multiplies its block of 5000 rows of the [50000,16] operand with the
   whole [16,128] operand and writes the [5000,128] product back as the same rows of the result. Row p of a block's product needs
   only row p of that block, so the ten blocks are the row blocks of the whole-array product, and they tile the result. -/
import proofs.«114538_j73581379715703_1_alg».proof.Proof.Gen.KernelIdeal.Frame
import proofs.«114538_j73581379715703_1_alg».proof.Proof.Spec
import Idealize.ShloMosaic.Lib.Pipeline.Value
import Idealize.ShloMosaic.Lib.ValueIdx
import Idealize.ShloMosaic.Lib.ValueLayout
import Idealize.ShloMosaic.PureOps.Ideal.Laws
noncomputable section
open Idealize.ShloMosaic Idealize.ShloMosaic.TcCoe Idealize.SL.Sem Idealize.ShloMosaic.ValueIdx
open Idealize.ShloMosaic.Pipeline (Dat)
namespace Cert.KernelIdeal.Region2
open Cert.KernelIdeal Cert.KernelIdeal.Gen

/-- The two zero offsets of a whole-buffer rectangle, as the constant function. -/
theorem zero_offsets : (![0, 0] : Fin 2 → Nat) = fun _ => 0 := funext fun a => by fin_cases a <;> rfl

/-- The left operand's row coordinate at an output index is the output's row. -/
theorem lhs_row (i : S5000x128.Idx) (k : dot_S5000x16_S16x128_S5000x128_1_0_0_1_n_n.contr.Idx) :
    (dot_S5000x16_S16x128_S5000x128_1_0_0_1_n_n.lhsIdx i k 0).val = (i 0).val := by
  unfold DotDims.lhsIdx
  rw [dif_neg (show ¬(0 : Fin S5000x16.rank) ∈ dot_S5000x16_S16x128_S5000x128_1_0_0_1_n_n.lhsBatch by decide), dif_pos (show (0 : Fin S5000x16.rank) ∈ dot_S5000x16_S16x128_S5000x128_1_0_0_1_n_n.lhsNonContracting by decide)]
  rfl

/-- The right operand's column coordinate at an output index is the output's column. -/
theorem rhs_col (i : S5000x128.Idx) (k : dot_S5000x16_S16x128_S5000x128_1_0_0_1_n_n.contr.Idx) :
    (dot_S5000x16_S16x128_S5000x128_1_0_0_1_n_n.rhsIdx i k 1).val = (i 1).val := by
  unfold DotDims.rhsIdx
  rw [dif_neg (show ¬(1 : Fin S16x128.rank) ∈ dot_S5000x16_S16x128_S5000x128_1_0_0_1_n_n.rhsBatch by decide), dif_pos (show (1 : Fin S16x128.rank) ∈ dot_S5000x16_S16x128_S5000x128_1_0_0_1_n_n.rhsNonContracting by decide)]
  rfl

/-- The block's product at (p, q): the sum over the contracted axis of row p of the left block times column q of the
    right one. Rounding the operands to bf16 and the cast of the left block to its own shape are the identity on the extended reals, and the
    accumulator is zero. -/
theorem pay_apply (x0 : Vec Ideal S5000x16 .f32) (x1 : Vec Ideal S16x128 .f32) (p : Fin 5000) (q : Fin 128) :
    k2_pay1 x0 x1 (ix2 p q) = ∑ j : Fin 16, x0 (ix2 p j) * x1 (ix2 j q) := by
  unfold k2_pay1
  refine (Ideal.matmul_constant_zero_apply dot_S5000x16_S16x128_S5000x128_1_0_0_1_n_n none _ _ (ix2 p q)).trans ?_
  rw [← Equiv.sum_comp (contrEquiv1 dot_S5000x16_S16x128_S5000x128_1_0_0_1_n_n 16 rfl rfl).symm]
  refine Finset.sum_congr rfl fun k _ => ?_
  have hk := contrEquiv1_symm_val dot_S5000x16_S16x128_S5000x128_1_0_0_1_n_n 16 rfl rfl k
  have el : dot_S5000x16_S16x128_S5000x128_1_0_0_1_n_n.lhsIdx (ix2 p q) ((contrEquiv1 dot_S5000x16_S16x128_S5000x128_1_0_0_1_n_n 16 rfl rfl).symm k) = ix2 p k := funext fun a => Fin.ext (by
    match a with
    | ⟨0, _⟩ => exact lhs_row _ _
    | ⟨1, _⟩ => exact (dot_S5000x16_S16x128_S5000x128_1_0_0_1_n_n.lhsIdx_val_of_single rfl _ _).trans hk)
  have er : dot_S5000x16_S16x128_S5000x128_1_0_0_1_n_n.rhsIdx (ix2 p q) ((contrEquiv1 dot_S5000x16_S16x128_S5000x128_1_0_0_1_n_n 16 rfl rfl).symm k) = ix2 k q := funext fun a => Fin.ext (by
    match a with
    | ⟨0, _⟩ => exact (dot_S5000x16_S16x128_S5000x128_1_0_0_1_n_n.rhsIdx_val_of_single rfl _ _).trans hk
    | ⟨1, _⟩ => exact rhs_col _ _)
  rw [el, er]
  show shapeCast S5000x16 x0 shapeCasts_S5000x16_S5000x16 (ix2 p k) * x1 (ix2 k q) = _
  rw [shapeCast_self]

/-- Row p of the block product needs only row p of the left block and the whole right block: if those agree with row r of
    a whole left array and with a whole right array, the block's entry (p, q) is the whole-array product's entry (r, q). -/
theorem block_dense (x0 : Vec Ideal S5000x16 .f32) (x1 : Vec Ideal S16x128 .f32)
    (A : FVec Ideal S50000x16 .f32) (B : FVec Ideal S16x128 .f32) (j : S5000x128.Idx) (i : S50000x128.Idx)
    (h0 : ∀ k : Fin 16, x0 (ix2 (Cert.GcnSpec.rowOf j) k) = A (ix2 (Cert.GcnSpec.rowOf i) k))
    (h1 : ∀ k : Fin 16, x1 (ix2 k (Cert.GcnSpec.colOf j)) = B (ix2 k (Cert.GcnSpec.colOf i))) :
    k2_pay1 x0 x1 j = Cert.GcnSpec.dense A B i := by
  have hj : j = ix2 (Cert.GcnSpec.rowOf j) (Cert.GcnSpec.colOf j) :=
    funext fun a => by match a with | ⟨0, _⟩ => rfl | ⟨1, _⟩ => rfl
  refine (congrArg (k2_pay1 x0 x1) hj).trans ((pay_apply x0 x1 _ _).trans ?_)
  exact Finset.sum_congr rfl fun k _ => by rw [h0 k, h1 k]

section Blocks
variable (V : (c : Dev nD) → (b : Ref sig .tc) → Buf (Elt Ideal) ((c : Thread nD τ).loc b))

/-- The block index maps over the ten grid points: the row-block index of the left operand's and of the result's window
    is the point itself; every other block index is zero. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t, at (p, k), is the array at row 5000·t + p, column k. -/
theorem lhs_block (c : Dev nD) (t : Fin cfg2.N) (p : Fin 5000) (k : Fin 16) (r : Fin 50000)
    (hr : r.val = 5000 * t.val + p.val) :
    (iblk2 (F := Ideal) V c 0 t : Vec Ideal S5000x16 .f32) (ix2 p k) = (V c main_v45 : S50000x16.Idx → EReal) (ix2 r k) := by
  obtain ⟨e0, e1, -⟩ := index_facts t
  have h : ((cfg2.win 0).blk t).view.emb (ix2 p k) = ix2 r k := by
    funext a; apply Fin.ext
    match a with
    | ⟨0, _⟩ => show win2_0.index t (0 : Fin 2) * 5000 + 1 * p.val = r.val; rw [e0, hr]; omega
    | ⟨1, _⟩ => show win2_0.index t (1 : Fin 2) * 16 + 1 * k.val = k.val; rw [e1]; omega
  show V c main_v45 (((cfg2.win 0).blk t).view.emb (ix2 p k)) = _
  rw [h]

/-- The right operand's block at every point is the whole array. -/
theorem rhs_block (c : Dev nD) (t : Fin cfg2.N) (k : Fin 16) (q q' : Fin 128) (hq : q'.val = q.val) :
    (iblk2 (F := Ideal) V c 1 t : Vec Ideal S16x128 .f32) (ix2 k q) = (V c main_arg4 : S16x128.Idx → EReal) (ix2 k q') := by
  obtain ⟨-, -, e2, e3, -⟩ := index_facts t
  have h : ((cfg2.win 1).blk t).view.emb (ix2 k q) = ix2 k q' := by
    funext a; apply Fin.ext
    match a with
    | ⟨0, _⟩ => show win2_1.index t (0 : Fin 2) * 16 + 1 * k.val = k.val; rw [e2]; omega
    | ⟨1, _⟩ => show win2_1.index t (1 : Fin 2) * 128 + 1 * q.val = q'.val; rw [e3, hq]; omega
  show V c main_arg4 (((cfg2.win 1).blk t).view.emb (ix2 k q)) = _
  rw [h]

/-- What point t writes back is block t of the whole-array product of the two arrays as the region finds them. -/
theorem flushed_eq (c : Dev nD) (t : Fin cfg2.N) :
    (dat2 (F := Ideal) V c).flushed 2 t
      = ((cfg2.win 2).blk t).view.read (Elt Ideal) (Cert.GcnSpec.dense (V c main_v45) (V c main_arg4)) := by
  show (cfg2.win 2).cut (grid2.coords t) ((dat2 V c).after 2 t) = _
  rw [after2_2]
  unfold out2_2
  rw [View.canon_unit_zero zero_offsets]
  simp only [View.ld_unit_zero (S := S5000x16) zero_offsets, View.ld_unit_zero (S := S16x128) zero_offsets]
  obtain ⟨-, -, -, -, e4, e5⟩ := index_facts t
  funext j
  show k2_pay1 (iblk2 V c 0 t) (iblk2 V c 1 t) j
    = Cert.GcnSpec.dense (V c main_v45) (V c main_arg4) (((cfg2.win 2).blk t).view.emb j)
  refine block_dense _ _ _ _ j _ (fun k => ?_) (fun k => ?_)
  · refine lhs_block V c t _ k _ ?_
    show win2_2.index t (0 : Fin 2) * 5000 + 1 * (j 0).val = 5000 * t.val + (j 0).val
    rw [e4]; omega
  · refine rhs_block V c t k _ _ ?_
    show win2_2.index t (1 : Fin 2) * 128 + 1 * (j 1).val = (j 1).val
    rw [e5]; omega

/-- An index of the result array is in point t's block iff each coordinate is in the block's range on its axis. -/
theorem mem_block (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v46).slice (win2_2.rect t)).set ↔ _
  rw [View.set_slice_whole, Rect.mem_set_unit]
  exact Iff.rfl

/-- The ten row blocks tile the result: row r lies in the block of point r / 5000. -/
theorem covered (i : S50000x128.Idx) :
    ∃ t : Fin cfg2.N, (cfg2.win 2).flush t = true ∧ i ∈ ((cfg2.win 2).blk t).view.set := by
  have hi0 : (i 0).val < 50000 := idx2_lt0 i
  have hi1 : (i 1).val < 128 := idx2_lt1 i
  have hN : grid2.N = 10 := N_2
  obtain ⟨t, ht⟩ : ∃ t : Fin cfg2.N, t.val = (i 0).val / 5000 :=
    ⟨⟨(i 0).val / 5000, by show (i 0).val / 5000 < grid2.N; rw [hN]; omega⟩, rfl⟩
  obtain ⟨-, -, -, -, e4, e5⟩ := index_facts t
  refine ⟨t, flush2_2 t, ?_⟩
  rw [mem_block]
  intro a
  match a with
  | ⟨0, _⟩ =>
    show win2_2.index t (0 : Fin 2) * 5000 ≤ (i 0).val ∧ (i 0).val < win2_2.index t (0 : Fin 2) * 5000 + 5000
    rw [e4, ht]; omega
  | ⟨1, _⟩ =>
    show win2_2.index t (1 : Fin 2) * 128 ≤ (i 1).val ∧ (i 1).val < win2_2.index t (1 : Fin 2) * 128 + 128
    rw [e5]; omega

end Blocks

/-- The result array after the region is the whole-array product of the two arrays the region finds. -/
theorem arr_eq (V : (c : Dev nD) → (b : Ref sig .tc) → Buf (Elt Ideal) ((c : Thread nD τ).loc b)) (c : Dev nD) :
    (dat2 (F := Ideal) V c).arrAt 2 cfg2.N = Cert.GcnSpec.dense (V c main_v45) (V c main_arg4) :=
  (dat2 (F := Ideal) V c).arrAt_eq_of_cover 2 (Cert.GcnSpec.dense (V c main_v45) (V c main_arg4))
    (fun t _ => flushed_eq V c t) covered

end Cert.KernelIdeal.Region2
end
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.Region3.lean ====
/-
  The bias-and-log-softmax stage: each of the ten grid points adds the one bias row to a block of 5000 rows of a
  [50000, 128] array and replaces every row by its log-softmax: subtract the row's maximum, then subtract the
  logarithm of the sum over the row of the exponentials of what is left.

  Output row p of a block depends only on input row p of the same block and on the bias row (the maximum and the sum
  are taken along the row), and block t holds rows 5000·t … 5000·t + 4999, so every block is the restriction of one
  whole-array function; the ten blocks are written back at every point and tile the array (row r lies in block
  r / 5000), hence the array ends at that function.
-/
import proofs.«114538_j73581379715703_1_alg».proof.Proof.Gen.KernelIdeal.Frame
import proofs.«114538_j73581379715703_1_alg».proof.Proof.Spec
import proofs.«114538_j73581379715703_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

/-- The zero offsets of a whole-block access, spelt as the constant function. -/
theorem zero_offsets : (![0, 0] : Fin 2 → Nat) = fun _ => 0 := funext fun a => by fin_cases a <;> rfl

/-! ## Rows: the whole-array function at a row depends on that row only -/

/-- Two arrays that agree along a row (row `r` of one, row `r'` of the other) have, after the same bias, the same
    log-softmax along it: the maximum and the sum of exponentials range over that row alone. -/
theorem biasLogSoftmax_row {n n' f : ℕ} (a : FVec Ideal ⟨2, ![n, f]⟩ .f32) (a' : FVec Ideal ⟨2, ![n', f]⟩ .f32)
    (b : FVec Ideal ⟨2, ![1, f]⟩ .f32) (r : Fin n) (r' : Fin n') (h : ∀ j : Fin f, a (ix2 r j) = a' (ix2 r' j)) (q : Fin f) :
    Cert.GcnSpec.biasLogSoftmax a b (ix2 r q) = Cert.GcnSpec.biasLogSoftmax a' b (ix2 r' q) := by
  have hv : ∀ j : Fin f, Cert.GcnSpec.addBias a b (ix2 r j) = Cert.GcnSpec.addBias a' b (ix2 r' j) := fun j => by
    rw [Cert.GcnSpec.addBias_apply, Cert.GcnSpec.addBias_apply, h j]
  have hm : Cert.GcnSpec.rowMax (Cert.GcnSpec.addBias a b) r = Cert.GcnSpec.rowMax (Cert.GcnSpec.addBias a' b) r' := by
    unfold Cert.GcnSpec.rowMax
    exact congrArg (fun g : Fin f → EReal => (Finset.univ : Finset (Fin f)).fold max (Ideal.ofBits .f32 0xFF800000#32) g) (funext hv)
  have hs : Cert.GcnSpec.rowExpSum (Cert.GcnSpec.addBias a b) r = Cert.GcnSpec.rowExpSum (Cert.GcnSpec.addBias a' b) r' := by
    unfold Cert.GcnSpec.rowExpSum
    rw [hm]
    exact Finset.sum_congr rfl fun j _ => by rw [hv j]
  unfold Cert.GcnSpec.biasLogSoftmax
  rw [Cert.GcnSpec.logSoftmax_apply, Cert.GcnSpec.logSoftmax_apply, hv q, hm, hs]

/-! ## The block's arithmetic at an entry -/

/-- The lane maximum of an `[a, b]` array from the word of minus infinity, at row `r`, is the row's maximum. -/
theorem rowMax_apply {a b : ℕ} (v : FVec Ideal ⟨2, ![a, b]⟩ .f32) (h : (⟨2, ![a, b]⟩ : Shape).Reduces [1] ⟨1, ![a]⟩)
    (hacc : (0xFF800000#32 : BitVec 32) = 0xFF800000#32) (r : Fin a) :
    multiReduction .maximumf [1] ⟨1, ![a]⟩ v 0xFF800000#32 h (.inl rfl) hacc (ix1 r) = Cert.GcnSpec.rowMax v r :=
  (Ideal.multiReduction_maximumf_single v 0xFF800000#32 h (.inl rfl) hacc (ix1 r)).trans
    (congrArg (fun g : Fin b → EReal => (Finset.univ : Finset (Fin b)).fold max (Ideal.ofBits .f32 0xFF800000#32) g)
      (funext fun k => congrArg v (funext fun ax => Fin.ext (by
        match ax with
        | ⟨0, _⟩ => rfl
        | ⟨1, _⟩ => rfl))))

/-- A per-row value kept as a column and broadcast back over the lanes reads, at `(p, k)`, the value of row `p`. -/
theorem column_apply (m : FVec Ideal S5000 .f32) (p : Fin 5000) (k : Fin 128) :
    broadcastTo S5000x128 (shapeCast S5000x1 m shapeCasts_S5000_S5000x1) broadcasts_S5000x1_S5000x128 (ix2 p k) = m (ix1 p) :=
  (Keepdims.broadcastTo_a1_ab_apply _ _ p k).trans (Keepdims.shapeCast_a_a1_apply m _ p 0)

/-- The bias row broadcast over the rows and added: the block plus the bias, entry by entry. -/
theorem bias_eq (x0 : Vec Ideal S5000x128 .f32) (x1 : Vec Ideal S1x128 .f32) :
    addf x0 (broadcastTo S5000x128 x1 broadcasts_S1x128_S5000x128) = Cert.GcnSpec.addBias x0 x1 := by
  funext j
  obtain ⟨p, q, rfl⟩ : ∃ (p : Fin 5000) (q : Fin 128), j = ix2 p q := ⟨j 0, j 1, eq_ix2 j⟩
  rw [addf_apply, broadcastTo_1b_ab_apply, Cert.GcnSpec.addBias_apply]

/-- The block's arithmetic is the bias followed by the rows' log-softmax, on the block. The maximum is subtracted
    twice in the program (once under the exponentials, once in the result); both read the same row maximum. -/
theorem pay_apply (x0 : Vec Ideal S5000x128 .f32) (x1 : Vec Ideal S1x128 .f32) (p : Fin 5000) (q : Fin 128) :
    k3_pay1 x0 x1 (ix2 p q) = Cert.GcnSpec.biasLogSoftmax x0 x1 (ix2 p q) := by
  unfold k3_pay1 Cert.GcnSpec.biasLogSoftmax
  simp only [shapeCast_self]
  rw [bias_eq x0 x1]
  generalize Cert.GcnSpec.addBias x0 x1 = v
  generalize hM : broadcastTo S5000x128 (shapeCast S5000x1 (multiReduction .maximumf [1] S5000 v 0xFF800000#32 reduces_S5000x128_S5000 (.inl rfl) rfl) shapeCasts_S5000_S5000x1) broadcasts_S5000x1_S5000x128 = M
  have hMr : ∀ k : Fin 128, M (ix2 p k) = Cert.GcnSpec.rowMax v p := fun k => by
    rw [← hM]
    exact (column_apply _ p k).trans (rowMax_apply v _ rfl p)
  rw [Cert.GcnSpec.logSoftmax_apply]
  refine (subf_apply _ _ _).trans ?_
  refine congrArg₂ (fun x y : EReal => x - y) ?_ ?_
  · exact (subf_apply _ _ _).trans (congrArg (fun y : EReal => v (ix2 p q) - y) (hMr q))
  · refine (Keepdims.broadcastTo_a1_ab_apply _ _ p q).trans ?_
    show Ideal.log (shapeCast S5000x1 _ shapeCasts_S5000_S5000x1 (ix2 p (0 : Fin 1))) = _
    refine congrArg Ideal.log ?_
    refine (Keepdims.shapeCast_a_a1_apply _ _ p 0).trans ?_
    refine (Keepdims.rowSum_apply _ _ rfl p).trans ?_
    unfold Cert.GcnSpec.rowExpSum
    refine Finset.sum_congr rfl fun k _ => ?_
    show Ideal.exp (v (ix2 p k) - M (ix2 p k)) = _
    rw [hMr k]

/-! ## Blocks -/

/-- The block indices over the grid: the row-block windows sit at block row `t`, block column 0; the bias window at
    block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- The input block at point `t`, entry `(p, j)`, is the array's entry `(5000·t + p, j)`. -/
theorem in_block_apply (c : Dev nD) (t : Fin cfg3.N) (p : Fin 5000) (j : Fin 128) (r : Fin 50000)
    (hr : r.val = 5000 * t.val + p.val) :
    (iblk3 (F := Ideal) V c 0 t : Vec Ideal S5000x128 .f32) (ix2 p j) = (V c main_v59 : S50000x128.Idx → EReal) (ix2 r j) := by
  obtain ⟨e0, e1, -, -, -, -⟩ := idx_facts t
  unfold iblk3
  rw [View.read_apply]
  show V c main_v59 _ = V c main_v59 _
  refine congrArg _ ?_
  funext a
  apply Fin.ext
  match a with
  | ⟨0, _⟩ => show win3_0.index t (0 : Fin 2) * 5000 + 1 * p.val = r.val; omega
  | ⟨1, _⟩ => show win3_0.index t (1 : Fin 2) * 128 + 1 * j.val = j.val; omega

/-- The bias block at any point is the whole bias array. -/
theorem bias_block_eq (c : Dev nD) (t : Fin cfg3.N) :
    (iblk3 (F := Ideal) V c 1 t : Vec Ideal S1x128 .f32) = (V c main_v60 : S1x128.Idx → EReal) := by
  obtain ⟨-, -, e2, e3, -, -⟩ := idx_facts t
  funext i
  unfold iblk3
  rw [View.read_apply]
  show V c main_v60 _ = V c main_v60 _
  refine congrArg _ ?_
  funext a
  apply Fin.ext
  match a with
  | ⟨0, _⟩ => show win3_1.index t (0 : Fin 2) * 1 + 1 * (i 0).val = (i 0).val; omega
  | ⟨1, _⟩ => show win3_1.index t (1 : Fin 2) * 128 + 1 * (i 1).val = (i 1).val; omega

/-- Entry `(p, q)` of the output block at point `t` sits in the array at `(5000·t + p, q)`. -/
theorem out_emb (t : Fin cfg3.N) (p : Fin 5000) (q : Fin 128) (r : Fin 50000) (hr : r.val = 5000 * t.val + p.val) :
    ((cfg3.win 2).blk t).view.emb (ix2 p q : S5000x128.Idx) = (ix2 r q : S50000x128.Idx) := by
  obtain ⟨-, -, -, -, e4, e5⟩ := idx_facts t
  funext a
  apply Fin.ext
  match a with
  | ⟨0, _⟩ => show win3_2.index t (0 : Fin 2) * 5000 + 1 * p.val = r.val; omega
  | ⟨1, _⟩ => show win3_2.index t (1 : Fin 2) * 128 + 1 * q.val = q.val; omega

/-- What point `t` writes back is block `t` of the whole-array function. -/
theorem flushed_eq (c : Dev nD) (t : Fin cfg3.N) :
    (dat3 (F := Ideal) V c).flushed 2 t
      = ((cfg3.win 2).blk t).view.read (Elt Ideal) (Cert.GcnSpec.biasLogSoftmax (V c main_v59) (V c main_v60)) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  have hN : cfg3.N = 10 := N_3
  have ht : t.val < 10 := by have := t.isLt; omega
  have hb : 5000 * t.val + p.val < 50000 := by have := p.isLt; omega
  show k3_pay1 (iblk3 V c 0 t) (iblk3 V c 1 t) (ix2 p q)
    = Cert.GcnSpec.biasLogSoftmax (V c main_v59) (V c main_v60) (((cfg3.win 2).blk t).view.emb (ix2 p q : S5000x128.Idx))
  rw [out_emb t p q ⟨5000 * t.val + p.val, hb⟩ rfl]
  refine (pay_apply _ _ p q).trans ?_
  rw [bias_block_eq V c t]
  exact biasLogSoftmax_row (n := 5000) (n' := 50000) (f := 128) _ _ _ p ⟨5000 * t.val + p.val, hb⟩
    (fun j => in_block_apply V c t p j ⟨5000 * t.val + p.val, hb⟩ rfl) q

/-- An index of the array is in point `t`'s block iff each coordinate is in the block's range on its axis. -/
theorem mem_block (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Every index of the array lies in the block of the point `row / 5000`, which writes back. -/
theorem cover (i : S50000x128.Idx) :
    ∃ t : Fin cfg3.N, (cfg3.win 2).flush t = true ∧ i ∈ ((cfg3.win 2).blk t).view.set := by
  have hN : grid3.N = 10 := N_3
  have hi0 : (i 0).val < 50000 := (i 0).isLt
  have hi1 : (i 1).val < 128 := (i 1).isLt
  have hlt : (i 0).val / 5000 < grid3.N := by omega
  refine ⟨⟨(i 0).val / 5000, hlt⟩, flush3_2 _, ?_⟩
  obtain ⟨-, -, -, -, e4, e5⟩ := idx_facts ⟨(i 0).val / 5000, hlt⟩
  rw [mem_block]
  intro a
  match a with
  | ⟨0, _⟩ =>
    show win3_2.index ⟨(i 0).val / 5000, hlt⟩ (0 : Fin 2) * 5000 ≤ (i 0).val ∧ (i 0).val < win3_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, hlt⟩ (1 : Fin 2) * 128 ≤ (i 1).val ∧ (i 1).val < win3_2.index ⟨(i 0).val / 5000, hlt⟩ (1 : Fin 2) * 128 + 128
    rw [e5]; omega

/-- The output array after the region: the bias added to every row of the input array, then every row's log-softmax. -/
theorem arr_eq (V : (c : Dev nD) → (b : Ref sig .tc) → Buf (Elt Ideal) ((c : Thread nD τ).loc b)) (c : Dev nD) :
    (dat3 (F := Ideal) V c).arrAt 2 cfg3.N = Cert.GcnSpec.biasLogSoftmax (V c main_v59) (V c main_v60) :=
  (dat3 (F := Ideal) V c).arrAt_eq_of_cover 2 _ (fun t _ => flushed_eq V c t) cover

end Cert.KernelIdeal.Region3

end
-- ==== Proof.KernelValue.lean ====
/-
  The idealized kernel's result, boundary by boundary.

  The contents of the buffers at each segment boundary are a fold from the launch memory. Reading the fold forwards:
  the host first leaves the edge lists and the edge weights (functions of the edge-index argument alone); the first region
  leaves the dense product of the node features with the first weights; the host propagates it along the edges; the second
  region adds the first bias and clips at zero; the third region leaves the dense product with the second weights; the host
  propagates again; the last region adds the second bias and takes the rows' log-softmax. Each step is the reference's stage of
  the same name, so the result buffer ends at the reference's result term of the arguments.
-/
import proofs.«114538_j73581379715703_1_alg».proof.Proof.KernelHost
import proofs.«114538_j73581379715703_1_alg».proof.Proof.RefBridge
import proofs.«114538_j73581379715703_1_alg».proof.Proof.Region0
import proofs.«114538_j73581379715703_1_alg».proof.Proof.Region1
import proofs.«114538_j73581379715703_1_alg».proof.Proof.Region2
import proofs.«114538_j73581379715703_1_alg».proof.Proof.Region3

set_option maxRecDepth 16384

noncomputable section

namespace Cert.KernelIdeal.Boundaries

open Cert.KernelIdeal Cert.KernelIdeal.Gen
open Idealize.ShloMosaic Idealize.ShloMosaic.TcCoe Idealize.SL.Sem Idealize.ShloMosaic.StableHlo
open Cert.ReferenceIdeal.ReadP
open Cert.GcnHost (propagate16 propagate128)
open Cert.GcnSpec (dense biasRelu addBias logSoftmax biasLogSoftmax)

variable (m : (ℓ : Loc nD τ sig) → Buf (Elt Ideal) ℓ) (ρ : Dev nD → PrngReg) (c : Dev nD)

/-! ## Entry of the first region: the edge lists, the weights, the arguments -/

theorem W3_row : W3 m ρ c (Proc.devRef .tc main_v3) = val_main_v3 (F := Ideal) (m ((c : Thread nD τ).loc main_arg1)) :=
  HostSide.row_eq (W0 m ρ c)
theorem W3_col : W3 m ρ c (Proc.devRef .tc main_v6) = val_main_v6 (F := Ideal) (m ((c : Thread nD τ).loc main_arg1)) :=
  HostSide.col_eq (W0 m ρ c)
theorem W3_norm : W3 m ρ c (Proc.devRef .tc main_v29) = val_main_v29 (F := Ideal) (m ((c : Thread nD τ).loc main_arg1)) :=
  HostSide.norm_eq (W0 m ρ c)
theorem W3_arg0 : W3 m ρ c (Proc.devRef .tc main_arg0) = m ((c : Thread nD τ).loc main_arg0) := HostSide.pre_keeps (W0 m ρ c) main_arg0 (by simp)
theorem W3_arg2 : W3 m ρ c (Proc.devRef .tc main_arg2) = m ((c : Thread nD τ).loc main_arg2) := HostSide.pre_keeps (W0 m ρ c) main_arg2 (by simp)
theorem W3_arg3 : W3 m ρ c (Proc.devRef .tc main_arg3) = m ((c : Thread nD τ).loc main_arg3) := HostSide.pre_keeps (W0 m ρ c) main_arg3 (by simp)
theorem W3_arg4 : W3 m ρ c (Proc.devRef .tc main_arg4) = m ((c : Thread nD τ).loc main_arg4) := HostSide.pre_keeps (W0 m ρ c) main_arg4 (by simp)
theorem W3_arg5 : W3 m ρ c (Proc.devRef .tc main_arg5) = m ((c : Thread nD τ).loc main_arg5) := HostSide.pre_keeps (W0 m ρ c) main_arg5 (by simp)

/-! ## Exit of the first region -/

/-- The first region leaves the dense product of the node features with the first weights. -/
theorem W4_prod : W4 m ρ c (Proc.devRef .tc main_v30)
    = dense (m ((c : Thread nD τ).loc main_arg0)) (m ((c : Thread nD τ).loc main_arg2)) := by
  refine (W4_arr m ρ c 2).trans ?_
  rw [Region0.arr_eq (V3 m ρ) c]
  show dense (W3 m ρ c (Proc.devRef .tc main_arg0)) (W3 m ρ c (Proc.devRef .tc main_arg2)) = _
  rw [W3_arg0, W3_arg2]

theorem W4_row : W4 m ρ c (Proc.devRef .tc main_v3) = val_main_v3 (F := Ideal) (m ((c : Thread nD τ).loc main_arg1)) :=
  (W4_of_ne m ρ c main_v3 (by decide)).trans (W3_row m ρ c)
theorem W4_col : W4 m ρ c (Proc.devRef .tc main_v6) = val_main_v6 (F := Ideal) (m ((c : Thread nD τ).loc main_arg1)) :=
  (W4_of_ne m ρ c main_v6 (by decide)).trans (W3_col m ρ c)
theorem W4_norm : W4 m ρ c (Proc.devRef .tc main_v29) = val_main_v29 (F := Ideal) (m ((c : Thread nD τ).loc main_arg1)) :=
  (W4_of_ne m ρ c main_v29 (by decide)).trans (W3_norm m ρ c)
theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)

/-! ## Entry of the second region -/

/-- The first aggregation: one propagation step of the first dense product. -/
theorem W5_agg : W5 m ρ c (Proc.devRef .tc main_v43)
    = propagate16 (m ((c : Thread nD τ).loc main_arg1)) (dense (m ((c : Thread nD τ).loc main_arg0)) (m ((c : Thread nD τ).loc main_arg2))) := by
  refine (HostSide.agg16_eq (W4 m ρ c) (m ((c : Thread nD τ).loc main_arg1)) (W4_row m ρ c) (W4_col m ρ c) (W4_norm m ρ c)).trans ?_
  rw [W4_prod]

/-- The first bias as a row: the reference's row of the same argument. -/
theorem W5_bias : W5 m ρ c (Proc.devRef .tc main_v44) = val_main_v44 (F := Ideal) (m ((c : Thread nD τ).loc main_arg3)) := by
  refine (HostSide.bias16_row (W4 m ρ c)).trans ?_
  rw [W4_arg3]
  exact Cert.GcnRef.bias16_eq _ _

theorem W5_row : W5 m ρ c (Proc.devRef .tc main_v3) = val_main_v3 (F := Ideal) (m ((c : Thread nD τ).loc main_arg1)) :=
  (HostSide.mid_keeps (W4 m ρ c) main_v3 (by simp)).trans (W4_row m ρ c)
theorem W5_col : W5 m ρ c (Proc.devRef .tc main_v6) = val_main_v6 (F := Ideal) (m ((c : Thread nD τ).loc main_arg1)) :=
  (HostSide.mid_keeps (W4 m ρ c) main_v6 (by simp)).trans (W4_col m ρ c)
theorem W5_norm : W5 m ρ c (Proc.devRef .tc main_v29) = val_main_v29 (F := Ideal) (m ((c : Thread nD τ).loc main_arg1)) :=
  (HostSide.mid_keeps (W4 m ρ c) main_v29 (by simp)).trans (W4_norm m ρ c)
theorem W5_arg4 : W5 m ρ c (Proc.devRef .tc main_arg4) = m ((c : Thread nD τ).loc main_arg4) :=
  (HostSide.mid_keeps (W4 m ρ c) main_arg4 (by simp)).trans (W4_arg4 m ρ c)
theorem W5_arg5 : W5 m ρ c (Proc.devRef .tc main_arg5) = m ((c : Thread nD τ).loc main_arg5) :=
  (HostSide.mid_keeps (W4 m ρ c) main_arg5 (by simp)).trans (W4_arg5 m ρ c)

/-! ## Exit of the second region, which is the entry of the third -/

/-- The hidden features: the first aggregation plus the first bias, clipped at zero — the reference's first layer. -/
theorem W6_hidden : W6 m ρ c (Proc.devRef .tc main_v45)
    = val_main_v47 (F := Ideal) (m ((c : Thread nD τ).loc main_arg0)) (m ((c : Thread nD τ).loc main_arg1)) (m ((c : Thread nD τ).loc main_arg2)) (m ((c : Thread nD τ).loc main_arg3)) := by
  refine (W6_arr m ρ c 2).trans ?_
  rw [Region1.arr_eq (V5 m ρ) c]
  show biasRelu (W5 m ρ c (Proc.devRef .tc main_v43)) (W5 m ρ c (Proc.devRef .tc main_v44)) = _
  rw [W5_agg, W5_bias, Cert.GcnRef.val_main_v47_biasRelu, Cert.GcnHost.val_main_v43_eq, Cert.GcnRef.val_main_v30_dense]

theorem W6_row : W6 m ρ c (Proc.devRef .tc main_v3) = val_main_v3 (F := Ideal) (m ((c : Thread nD τ).loc main_arg1)) :=
  (W6_of_ne m ρ c main_v3 (by decide)).trans (W5_row m ρ c)
theorem W6_col : W6 m ρ c (Proc.devRef .tc main_v6) = val_main_v6 (F := Ideal) (m ((c : Thread nD τ).loc main_arg1)) :=
  (W6_of_ne m ρ c main_v6 (by decide)).trans (W5_col m ρ c)
theorem W6_norm : W6 m ρ c (Proc.devRef .tc main_v29) = val_main_v29 (F := Ideal) (m ((c : Thread nD τ).loc main_arg1)) :=
  (W6_of_ne m ρ c main_v29 (by decide)).trans (W5_norm m ρ c)
theorem W6_arg4 : W6 m ρ c (Proc.devRef .tc main_arg4) = m ((c : Thread nD τ).loc main_arg4) :=
  (W6_of_ne m ρ c main_arg4 (by decide)).trans (W5_arg4 m ρ c)
theorem W6_arg5 : W6 m ρ c (Proc.devRef .tc main_arg5) = m ((c : Thread nD τ).loc main_arg5) :=
  (W6_of_ne m ρ c main_arg5 (by decide)).trans (W5_arg5 m ρ c)

/-! ## Exit of the third region -/

/-- The second dense product: the reference's second `dot_general`. -/
theorem W7_prod : W7 m ρ c (Proc.devRef .tc main_v46)
    = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ?_
  rw [Region2.arr_eq (V6 m ρ) c]
  show dense (W6 m ρ c (Proc.devRef .tc main_v45)) (W6 m ρ c (Proc.devRef .tc main_arg4)) = _
  rw [W6_hidden, W6_arg4, Cert.GcnRef.val_main_v48_dense]

theorem W7_row : W7 m ρ c (Proc.devRef .tc main_v3) = val_main_v3 (F := Ideal) (m ((c : Thread nD τ).loc main_arg1)) :=
  (W7_of_ne m ρ c main_v3 (by decide)).trans (W6_row m ρ c)
theorem W7_col : W7 m ρ c (Proc.devRef .tc main_v6) = val_main_v6 (F := Ideal) (m ((c : Thread nD τ).loc main_arg1)) :=
  (W7_of_ne m ρ c main_v6 (by decide)).trans (W6_col m ρ c)
theorem W7_norm : W7 m ρ c (Proc.devRef .tc main_v29) = val_main_v29 (F := Ideal) (m ((c : Thread nD τ).loc main_arg1)) :=
  (W7_of_ne m ρ c main_v29 (by decide)).trans (W6_norm m ρ c)
theorem W7_arg5 : W7 m ρ c (Proc.devRef .tc main_arg5) = m ((c : Thread nD τ).loc main_arg5) :=
  (W7_of_ne m ρ c main_arg5 (by decide)).trans (W6_arg5 m ρ c)

/-! ## Entry of the last region -/

/-- The second aggregation: the reference's second scatter-add. -/
theorem W8_agg : W8 m ρ c (Proc.devRef .tc main_v59)
    = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (HostSide.agg128_eq (W7 m ρ c) (m ((c : Thread nD τ).loc main_arg1)) (W7_row m ρ c) (W7_col m ρ c) (W7_norm m ρ c)).trans ?_
  rw [W7_prod, Cert.GcnHost.val_main_v61_eq]

/-- The second bias as a row. -/
theorem W8_bias : W8 m ρ c (Proc.devRef .tc main_v60) = val_main_v62 (F := Ideal) (m ((c : Thread nD τ).loc main_arg5)) := by
  refine (HostSide.bias128_row (W7 m ρ c)).trans ?_
  rw [W7_arg5]
  exact Cert.GcnRef.bias128_eq _ _

/-! ## The result -/

/-- After the last region the result buffer holds the reference's result term of the launch arguments. -/
theorem W9_result : W9 m ρ c (Proc.devRef .tc main_v61)
    = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ?_
  rw [Region3.arr_eq (V8 m ρ) c]
  show biasLogSoftmax (W8 m ρ c (Proc.devRef .tc main_v59)) (W8 m ρ c (Proc.devRef .tc main_v60)) = _
  rw [W8_agg, W8_bias, Cert.GcnRef.val_main_v65_logSoftmax, Cert.GcnRef.val_main_v64_addBias]
  rfl

end Cert.KernelIdeal.Boundaries

end
-- ==== Proof.RefStages.lean ====
/-
  The reference's run, read stage by stage.

  The reference is ninety-eight host operations in a row. Its buffers after the run are the fold of the operations over the launch
  memory, and the fold over a list cut in pieces is the folds of the pieces one after the other. Cut where the layers cut it —
  the graph quantities (edge lists and weights, from the edge-index argument alone); the first dense product and its propagation; the
  bias, the clip and the second dense product; the second propagation; the bias and the rows' log-softmax — each piece takes the
  stages it reads to the stages it writes, and a stage that is read several times is carried by name instead of being repeated. So the
  result buffer ends at the last stage of the launch arguments, and no operation writes an argument.
-/
import proofs.«114538_j73581379715703_1_alg».proof.Proof.RefRead

set_option maxRecDepth 16384
set_option Elab.async false

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- The fold over two lists in a row is the second list's fold of the first's. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-! ## The five pieces of the operation list -/

section Pieces
variable {F : FTy → Type} [FloatOps F]

/-- The graph quantities: the edge lists, the degrees, the edge weights (40 operations). -/
abbrev opsA : List (HloOp τ sig (Elt F)) :=
  [ nullary main_v0 (iotaInDim S50000 32 0),
    unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    reshape main_v1 main_v2 rfl shapeCasts_S1x600000_S600000,
    binary main_v2 main_v0 main_v3 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    reshape main_v4 main_v5 rfl shapeCasts_S1x600000_S600000,
    binary main_v5 main_v0 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    nullary main_cst (constant S_ .f32 0x3F800000#32),
    unary main_cst main_v7 (broadcastInDim S650000 ![] bcast_S_S650000 : (⟨S_, .f32⟩ : BufTy).Contents (Elt F) → (⟨S650000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S650000x1 ![0] bcast_S650000_S650000x1_0 : (⟨S650000, .i32⟩ : BufTy).Contents (Elt F) → (⟨S650000x1, .i32⟩ : BufTy).Contents (Elt F)),
    ternary main_v8 main_v9 main_v7 main_v10 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S650000 ![] bcast_S_S650000 : (⟨S_, .i32⟩ : BufTy).Contents (Elt F) → (⟨S650000, .i32⟩ : BufTy).Contents (Elt F)),
    binary main_v3 main_v15 main_v16 (cmpi .slt : (⟨S650000, .i32⟩ : BufTy).Contents (Elt F) → (⟨S650000, .i32⟩ : BufTy).Contents (Elt F) → (⟨S650000, .i1⟩ : BufTy).Contents (Elt F)),
    nullary main_c_3 (constantI S_ 32 50000#32),
    unary main_c_3 main_v17 (broadcastInDim S650000 ![] bcast_S_S650000 : (⟨S_, .i32⟩ : BufTy).Contents (Elt F) → (⟨S650000, .i32⟩ : BufTy).Contents (Elt F)),
    binary main_v3 main_v17 main_v18 (addi : (⟨S650000, .i32⟩ : BufTy).Contents (Elt F) → (⟨S650000, .i32⟩ : BufTy).Contents (Elt F) → (⟨S650000, .i32⟩ : BufTy).Contents (Elt F)),
    ternary main_v16 main_v18 main_v3 main_v19 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v19 main_v20 (broadcastInDim S650000x1 ![0] bcast_S650000_S650000x1_0 : (⟨S650000, .i32⟩ : BufTy).Contents (Elt F) → (⟨S650000x1, .i32⟩ : BufTy).Contents (Elt F)),
    binary main_v14 main_v20 main_v21 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    nullary main_c_4 (constantI S_ 32 0#32),
    unary main_c_4 main_v22 (broadcastInDim S650000 ![] bcast_S_S650000 : (⟨S_, .i32⟩ : BufTy).Contents (Elt F) → (⟨S650000, .i32⟩ : BufTy).Contents (Elt F)),
    binary main_v6 main_v22 main_v23 (cmpi .slt : (⟨S650000, .i32⟩ : BufTy).Contents (Elt F) → (⟨S650000, .i32⟩ : BufTy).Contents (Elt F) → (⟨S650000, .i1⟩ : BufTy).Contents (Elt F)),
    nullary main_c_5 (constantI S_ 32 50000#32),
    unary main_c_5 main_v24 (broadcastInDim S650000 ![] bcast_S_S650000 : (⟨S_, .i32⟩ : BufTy).Contents (Elt F) → (⟨S650000, .i32⟩ : BufTy).Contents (Elt F)),
    binary main_v6 main_v24 main_v25 (addi : (⟨S650000, .i32⟩ : BufTy).Contents (Elt F) → (⟨S650000, .i32⟩ : BufTy).Contents (Elt F) → (⟨S650000, .i32⟩ : BufTy).Contents (Elt F)),
    ternary main_v23 main_v25 main_v6 main_v26 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v26 main_v27 (broadcastInDim S650000x1 ![0] bcast_S650000_S650000x1_0 : (⟨S650000, .i32⟩ : BufTy).Contents (Elt F) → (⟨S650000x1, .i32⟩ : BufTy).Contents (Elt F)),
    binary main_v14 main_v27 main_v28 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    binary main_v21 main_v28 main_v29 (mulf : (⟨S650000, .f32⟩ : BufTy).Contents (Elt F) → (⟨S650000, .f32⟩ : BufTy).Contents (Elt F) → (⟨S650000, .f32⟩ : BufTy).Contents (Elt F)) ]

/-- The first dense product and its propagation along the edges (17 operations). -/
abbrev opsB : List (HloOp τ sig (Elt F)) :=
  [ binary main_arg0 main_arg2 main_v30 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    nullary main_c_6 (constantI S_ 32 0#32),
    unary main_c_6 main_v31 (broadcastInDim S650000 ![] bcast_S_S650000 : (⟨S_, .i32⟩ : BufTy).Contents (Elt F) → (⟨S650000, .i32⟩ : BufTy).Contents (Elt F)),
    binary main_v3 main_v31 main_v32 (cmpi .slt : (⟨S650000, .i32⟩ : BufTy).Contents (Elt F) → (⟨S650000, .i32⟩ : BufTy).Contents (Elt F) → (⟨S650000, .i1⟩ : BufTy).Contents (Elt F)),
    nullary main_c_7 (constantI S_ 32 50000#32),
    unary main_c_7 main_v33 (broadcastInDim S650000 ![] bcast_S_S650000 : (⟨S_, .i32⟩ : BufTy).Contents (Elt F) → (⟨S650000, .i32⟩ : BufTy).Contents (Elt F)),
    binary main_v3 main_v33 main_v34 (addi : (⟨S650000, .i32⟩ : BufTy).Contents (Elt F) → (⟨S650000, .i32⟩ : BufTy).Contents (Elt F) → (⟨S650000, .i32⟩ : BufTy).Contents (Elt F)),
    ternary main_v32 main_v34 main_v3 main_v35 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v35 main_v36 (broadcastInDim S650000x1 ![0] bcast_S650000_S650000x1_0 : (⟨S650000, .i32⟩ : BufTy).Contents (Elt F) → (⟨S650000x1, .i32⟩ : BufTy).Contents (Elt F)),
    binary main_v30 main_v36 main_v37 ((fun x i => Host.gather gather_S50000x16_S650000x1_S650000x16_1_0_n_n_0_1_116 x i) : (⟨S50000x16, .f32⟩ : BufTy).Contents (Elt F) → (⟨S650000x1, .i32⟩ : BufTy).Contents (Elt F) → (⟨S650000x16, .f32⟩ : BufTy).Contents (Elt F)),
    unary main_v29 main_v38 (broadcastInDim S650000x1 ![0] bcast_S650000_S650000x1_0 : (⟨S650000, .f32⟩ : BufTy).Contents (Elt F) → (⟨S650000x1, .f32⟩ : BufTy).Contents (Elt F)),
    unary main_v38 main_v39 (broadcastInDim S650000x16 ![0, 1] bcast_S650000x1_S650000x16_0_1 : (⟨S650000x1, .f32⟩ : BufTy).Contents (Elt F) → (⟨S650000x16, .f32⟩ : BufTy).Contents (Elt F)),
    binary main_v37 main_v39 main_v40 (mulf : (⟨S650000x16, .f32⟩ : BufTy).Contents (Elt F) → (⟨S650000x16, .f32⟩ : BufTy).Contents (Elt F) → (⟨S650000x16, .f32⟩ : BufTy).Contents (Elt F)),
    nullary main_cst_8 (constant S_ .f32 0x00000000#32),
    unary main_cst_8 main_v41 (broadcastInDim S50000x16 ![] bcast_S_S50000x16 : (⟨S_, .f32⟩ : BufTy).Contents (Elt F) → (⟨S50000x16, .f32⟩ : BufTy).Contents (Elt F)),
    unary main_v6 main_v42 (broadcastInDim S650000x1 ![0] bcast_S650000_S650000x1_0 : (⟨S650000, .i32⟩ : BufTy).Contents (Elt F) → (⟨S650000x1, .i32⟩ : BufTy).Contents (Elt F)),
    ternary main_v41 main_v42 main_v40 main_v43 ((fun x i u => Host.scatterAdd scatter_S50000x16_S650000x1_S650000x16_1_0_0_1 x i u) : (⟨S50000x16, .f32⟩ : BufTy).Contents (Elt F) → (⟨S650000x1, .i32⟩ : BufTy).Contents (Elt F) → (⟨S650000x16, .f32⟩ : BufTy).Contents (Elt F) → (⟨S50000x16, .f32⟩ : BufTy).Contents (Elt F)) ]

/-- The first bias, the clip at zero, the second dense product (7 operations). -/
abbrev opsC : List (HloOp τ sig (Elt F)) :=
  [ unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S50000x16 ![0, 1] bcast_S1x16_S50000x16_0_1 : (⟨S1x16, .f32⟩ : BufTy).Contents (Elt F) → (⟨S50000x16, .f32⟩ : BufTy).Contents (Elt F)),
    binary main_v43 main_v45 main_v46 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x16, .f32⟩) main_call1_v0) (broadcastInDim S50000x16 ![] bcast_S_S50000x16),
    TRef.binary (TRef.of (T := ⟨S50000x16, .f32⟩) main_v46) (TRef.of (T := ⟨S50000x16, .f32⟩) main_call1_v0) (TRef.of (T := ⟨S50000x16, .f32⟩) main_v47) maximumf,
    binary main_v47 main_arg4 main_v48 ((fun l r => Host.dotGeneral dot_S50000x16_S16x128_S50000x128_1_0_0_1_n_n none l r) : (⟨S50000x16, .f32⟩ : BufTy).Contents (Elt F) → (⟨S16x128, .f32⟩ : BufTy).Contents (Elt F) → (⟨S50000x128, .f32⟩ : BufTy).Contents (Elt F)) ]

/-- The second propagation (16 operations). -/
abbrev opsD : List (HloOp τ sig (Elt F)) :=
  [ nullary main_c_9 (constantI S_ 32 0#32),
    unary main_c_9 main_v49 (broadcastInDim S650000 ![] bcast_S_S650000 : (⟨S_, .i32⟩ : BufTy).Contents (Elt F) → (⟨S650000, .i32⟩ : BufTy).Contents (Elt F)),
    binary main_v3 main_v49 main_v50 (cmpi .slt : (⟨S650000, .i32⟩ : BufTy).Contents (Elt F) → (⟨S650000, .i32⟩ : BufTy).Contents (Elt F) → (⟨S650000, .i1⟩ : BufTy).Contents (Elt F)),
    nullary main_c_10 (constantI S_ 32 50000#32),
    unary main_c_10 main_v51 (broadcastInDim S650000 ![] bcast_S_S650000 : (⟨S_, .i32⟩ : BufTy).Contents (Elt F) → (⟨S650000, .i32⟩ : BufTy).Contents (Elt F)),
    binary main_v3 main_v51 main_v52 (addi : (⟨S650000, .i32⟩ : BufTy).Contents (Elt F) → (⟨S650000, .i32⟩ : BufTy).Contents (Elt F) → (⟨S650000, .i32⟩ : BufTy).Contents (Elt F)),
    ternary main_v50 main_v52 main_v3 main_v53 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v53 main_v54 (broadcastInDim S650000x1 ![0] bcast_S650000_S650000x1_0 : (⟨S650000, .i32⟩ : BufTy).Contents (Elt F) → (⟨S650000x1, .i32⟩ : BufTy).Contents (Elt F)),
    binary main_v48 main_v54 main_v55 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v29 main_v56 (broadcastInDim S650000x1 ![0] bcast_S650000_S650000x1_0 : (⟨S650000, .f32⟩ : BufTy).Contents (Elt F) → (⟨S650000x1, .f32⟩ : BufTy).Contents (Elt F)),
    unary main_v56 main_v57 (broadcastInDim S650000x128 ![0, 1] bcast_S650000x1_S650000x128_0_1 : (⟨S650000x1, .f32⟩ : BufTy).Contents (Elt F) → (⟨S650000x128, .f32⟩ : BufTy).Contents (Elt F)),
    binary main_v55 main_v57 main_v58 (mulf : (⟨S650000x128, .f32⟩ : BufTy).Contents (Elt F) → (⟨S650000x128, .f32⟩ : BufTy).Contents (Elt F) → (⟨S650000x128, .f32⟩ : BufTy).Contents (Elt F)),
    nullary main_cst_11 (constant S_ .f32 0x00000000#32),
    unary main_cst_11 main_v59 (broadcastInDim S50000x128 ![] bcast_S_S50000x128 : (⟨S_, .f32⟩ : BufTy).Contents (Elt F) → (⟨S50000x128, .f32⟩ : BufTy).Contents (Elt F)),
    unary main_v6 main_v60 (broadcastInDim S650000x1 ![0] bcast_S650000_S650000x1_0 : (⟨S650000, .i32⟩ : BufTy).Contents (Elt F) → (⟨S650000x1, .i32⟩ : BufTy).Contents (Elt F)),
    ternary main_v59 main_v60 main_v58 main_v61 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)) ]

/-- The second bias and the rows' log-softmax (18 operations). -/
abbrev opsE : List (HloOp τ sig (Elt F)) :=
  [ unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0xFF800000#32),
    TRef.binary (TRef.of (T := ⟨S50000x128, .f32⟩) main_v64) (TRef.of (T := ⟨S_, .f32⟩) main_call2_cst) (TRef.of (T := ⟨S50000, .f32⟩) main_call2_v0) (fun x v => Host.reduce FloatOps.maximumf x v reducesTo_S50000x128_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x128, .f32⟩) main_call2_v4) (broadcastInDim S50000x128 ![0, 1] bcast_S50000x1_S50000x128_0_1),
    TRef.binary (TRef.of (T := ⟨S50000x128, .f32⟩) main_v64) (TRef.of (T := ⟨S50000x128, .f32⟩) main_call2_v4) (TRef.of (T := ⟨S50000x128, .f32⟩) main_call2_v5) subf,
    TRef.unary (TRef.of (T := ⟨S50000x128, .f32⟩) main_call2_v5) (TRef.of (T := ⟨S50000x128, .f32⟩) main_call2_v6) Host.exp,
    TRef.nullary (TRef.of (T := ⟨S_, .f32⟩) main_call2_cst_1) (constant S_ .f32 0x00000000#32),
    TRef.binary (TRef.of (T := ⟨S50000x128, .f32⟩) main_call2_v6) (TRef.of (T := ⟨S_, .f32⟩) main_call2_cst_1) (TRef.of (T := ⟨S50000, .f32⟩) main_call2_v7) (fun x v => Host.reduceAdd x v reducesTo_S50000x128_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x128, .f32⟩) main_call2_v10) (broadcastInDim S50000x128 ![0, 1] bcast_S50000x1_S50000x128_0_1),
    TRef.binary (TRef.of (T := ⟨S50000x128, .f32⟩) main_call2_v5) (TRef.of (T := ⟨S50000x128, .f32⟩) main_call2_v10) (TRef.of (T := ⟨S50000x128, .f32⟩) main_v65) subf ]

/-- The two edge lists with the self-loops appended, the degrees, their inverse square roots and which are positive (18 operations). -/
abbrev opsA1 : List (HloOp τ sig (Elt F)) :=
  [ nullary main_v0 (iotaInDim S50000 32 0),
    unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    reshape main_v1 main_v2 rfl shapeCasts_S1x600000_S600000,
    binary main_v2 main_v0 main_v3 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    reshape main_v4 main_v5 rfl shapeCasts_S1x600000_S600000,
    binary main_v5 main_v0 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    nullary main_cst (constant S_ .f32 0x3F800000#32),
    unary main_cst main_v7 (broadcastInDim S650000 ![] bcast_S_S650000 : (⟨S_, .f32⟩ : BufTy).Contents (Elt F) → (⟨S650000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S650000x1 ![0] bcast_S650000_S650000x1_0 : (⟨S650000, .i32⟩ : BufTy).Contents (Elt F) → (⟨S650000x1, .i32⟩ : BufTy).Contents (Elt F)),
    ternary main_v8 main_v9 main_v7 main_v10 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32) ]

/-- Zero in place of the inverse square root where the degree is not positive (3 operations). -/
abbrev opsA2 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- That factor at each edge's two endpoints, and the product of the two: the edge weights (19 operations). -/
abbrev opsA3 : List (HloOp τ sig (Elt F)) :=
  [ nullary main_c (constantI S_ 32 0#32),
    unary main_c main_v15 (broadcastInDim S650000 ![] bcast_S_S650000 : (⟨S_, .i32⟩ : BufTy).Contents (Elt F) → (⟨S650000, .i32⟩ : BufTy).Contents (Elt F)),
    binary main_v3 main_v15 main_v16 (cmpi .slt : (⟨S650000, .i32⟩ : BufTy).Contents (Elt F) → (⟨S650000, .i32⟩ : BufTy).Contents (Elt F) → (⟨S650000, .i1⟩ : BufTy).Contents (Elt F)),
    nullary main_c_3 (constantI S_ 32 50000#32),
    unary main_c_3 main_v17 (broadcastInDim S650000 ![] bcast_S_S650000 : (⟨S_, .i32⟩ : BufTy).Contents (Elt F) → (⟨S650000, .i32⟩ : BufTy).Contents (Elt F)),
    binary main_v3 main_v17 main_v18 (addi : (⟨S650000, .i32⟩ : BufTy).Contents (Elt F) → (⟨S650000, .i32⟩ : BufTy).Contents (Elt F) → (⟨S650000, .i32⟩ : BufTy).Contents (Elt F)),
    ternary main_v16 main_v18 main_v3 main_v19 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v19 main_v20 (broadcastInDim S650000x1 ![0] bcast_S650000_S650000x1_0 : (⟨S650000, .i32⟩ : BufTy).Contents (Elt F) → (⟨S650000x1, .i32⟩ : BufTy).Contents (Elt F)),
    binary main_v14 main_v20 main_v21 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    nullary main_c_4 (constantI S_ 32 0#32),
    unary main_c_4 main_v22 (broadcastInDim S650000 ![] bcast_S_S650000 : (⟨S_, .i32⟩ : BufTy).Contents (Elt F) → (⟨S650000, .i32⟩ : BufTy).Contents (Elt F)),
    binary main_v6 main_v22 main_v23 (cmpi .slt : (⟨S650000, .i32⟩ : BufTy).Contents (Elt F) → (⟨S650000, .i32⟩ : BufTy).Contents (Elt F) → (⟨S650000, .i1⟩ : BufTy).Contents (Elt F)),
    nullary main_c_5 (constantI S_ 32 50000#32),
    unary main_c_5 main_v24 (broadcastInDim S650000 ![] bcast_S_S650000 : (⟨S_, .i32⟩ : BufTy).Contents (Elt F) → (⟨S650000, .i32⟩ : BufTy).Contents (Elt F)),
    binary main_v6 main_v24 main_v25 (addi : (⟨S650000, .i32⟩ : BufTy).Contents (Elt F) → (⟨S650000, .i32⟩ : BufTy).Contents (Elt F) → (⟨S650000, .i32⟩ : BufTy).Contents (Elt F)),
    ternary main_v23 main_v25 main_v6 main_v26 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v26 main_v27 (broadcastInDim S650000x1 ![0] bcast_S650000_S650000x1_0 : (⟨S650000, .i32⟩ : BufTy).Contents (Elt F) → (⟨S650000x1, .i32⟩ : BufTy).Contents (Elt F)),
    binary main_v14 main_v27 main_v28 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    binary main_v21 main_v28 main_v29 (mulf : (⟨S650000, .f32⟩ : BufTy).Contents (Elt F) → (⟨S650000, .f32⟩ : BufTy).Contents (Elt F) → (⟨S650000, .f32⟩ : BufTy).Contents (Elt F)) ]

/-- The first piece is its three parts in a row. -/
theorem opsA_eq : (opsA : List (HloOp τ sig (Elt F))) = opsA1 ++ (opsA2 ++ opsA3) := rfl

/-- The second bias added to every row (3 operations). -/
abbrev opsE1 : List (HloOp τ sig (Elt F)) :=
  [ unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)) ]

/-- Each row's maximum, folded from minus infinity (2 operations). -/
abbrev opsE2a : List (HloOp τ sig (Elt F)) :=
  [ TRef.nullary (TRef.of (T := ⟨S_, .f32⟩) main_call2_cst) (constant S_ .f32 0xFF800000#32),
    TRef.binary (TRef.of (T := ⟨S50000x128, .f32⟩) main_v64) (TRef.of (T := ⟨S_, .f32⟩) main_call2_cst) (TRef.of (T := ⟨S50000, .f32⟩) main_call2_v0) (fun x v => Host.reduce FloatOps.maximumf x v reducesTo_S50000x128_S50000_d1 h_S_) ]

/-- The maxima against a row of minus infinities (3 operations). -/
abbrev opsE2b : List (HloOp τ sig (Elt F)) :=
  [ TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf ]

/-- The maxima laid along the rows and subtracted (3 operations). -/
abbrev opsE2c : List (HloOp τ sig (Elt F)) :=
  [ TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x128, .f32⟩) main_call2_v4) (broadcastInDim S50000x128 ![0, 1] bcast_S50000x1_S50000x128_0_1),
    TRef.binary (TRef.of (T := ⟨S50000x128, .f32⟩) main_v64) (TRef.of (T := ⟨S50000x128, .f32⟩) main_call2_v4) (TRef.of (T := ⟨S50000x128, .f32⟩) main_call2_v5) subf ]

/-- The logarithm of each row's sum of exponentials, subtracted (7 operations). -/
abbrev opsE3 : List (HloOp τ sig (Elt F)) :=
  [ TRef.unary (TRef.of (T := ⟨S50000x128, .f32⟩) main_call2_v5) (TRef.of (T := ⟨S50000x128, .f32⟩) main_call2_v6) Host.exp,
    TRef.nullary (TRef.of (T := ⟨S_, .f32⟩) main_call2_cst_1) (constant S_ .f32 0x00000000#32),
    TRef.binary (TRef.of (T := ⟨S50000x128, .f32⟩) main_call2_v6) (TRef.of (T := ⟨S_, .f32⟩) main_call2_cst_1) (TRef.of (T := ⟨S50000, .f32⟩) main_call2_v7) (fun x v => Host.reduceAdd x v reducesTo_S50000x128_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x128, .f32⟩) main_call2_v10) (broadcastInDim S50000x128 ![0, 1] bcast_S50000x1_S50000x128_0_1),
    TRef.binary (TRef.of (T := ⟨S50000x128, .f32⟩) main_call2_v5) (TRef.of (T := ⟨S50000x128, .f32⟩) main_call2_v10) (TRef.of (T := ⟨S50000x128, .f32⟩) main_v65) subf ]

/-- The last piece is its five parts in a row. -/
theorem opsE_eq : (opsE : List (HloOp τ sig (Elt F))) = opsE1 ++ (opsE2a ++ (opsE2b ++ (opsE2c ++ opsE3))) := rfl

set_option maxRecDepth 65536 in
/-- The program's operation list is the five pieces in a row. -/
theorem ops_eq : (ops : List (HloOp τ sig (Elt F))) = opsA ++ (opsB ++ (opsC ++ (opsD ++ opsE))) := rfl

end Pieces

variable (W : Valuation τ sig (Elt Ideal))

/-! ## The graph quantities -/

theorem A1_row : after (opsA1 (F := Ideal)) W (Proc.devRef .tc main_v3) = val_main_v3 (F := Ideal) (W (Proc.devRef .tc main_arg1)) := by
  unfold opsA1; after_results_simp
  rfl
theorem A1_col : after (opsA1 (F := Ideal)) W (Proc.devRef .tc main_v6) = val_main_v6 (F := Ideal) (W (Proc.devRef .tc main_arg1)) := by
  unfold opsA1; after_results_simp
  rfl
theorem A1_pos : after (opsA1 (F := Ideal)) W (Proc.devRef .tc main_v12) = val_main_v12 (F := Ideal) (W (Proc.devRef .tc main_arg1)) := by
  unfold opsA1; after_results_simp
  rfl
theorem A1_rsqrt : after (opsA1 (F := Ideal)) W (Proc.devRef .tc main_v13) = val_main_v13 (F := Ideal) (W (Proc.devRef .tc main_arg1)) := by
  unfold opsA1; after_results_simp
  rfl
theorem A1_zero : after (opsA1 (F := Ideal)) W (Proc.devRef .tc main_cst_2) = val_main_cst_2 (F := Ideal) := by
  unfold opsA1; after_results_simp
  rfl
/-- The inverse square roots of the degrees, with zero where the degree is not positive. -/
theorem A2_factor (x1 : (⟨S2x600000, .i32⟩ : BufTy).Contents (Elt Ideal)) (h12 : W (Proc.devRef .tc main_v12) = val_main_v12 (F := Ideal) x1)
    (h13 : W (Proc.devRef .tc main_v13) = val_main_v13 (F := Ideal) x1)
    (hc : W (Proc.devRef .tc main_cst_2) = val_main_cst_2 (F := Ideal)) :
    after (opsA2 (F := Ideal)) W (Proc.devRef .tc main_v14) = val_main_v14 (F := Ideal) x1 := by
  unfold opsA2; after_results_simp
  simp only [TRef.ofBuf, TRef.toBuf, cast_cast, cast_eq]
  rw [h12, h13, hc]
  rfl
theorem A2_keeps (r : Ref sig .tc) (hr : r = main_v3 ∨ r = main_v6) :
    after (opsA2 (F := Ideal)) W (Proc.devRef .tc r) = W (Proc.devRef .tc r) := by
  rcases hr with rfl | rfl <;>
  · refine after_of_forall_not_mem (b := Proc.devRef .tc _) _ _ (List.forall_iff_forall_mem.mp ?_)
    simp only [opsA2, List.Forall, nullary_writes, unary_writes, binary_writes, ternary_writes, quaternary_writes, reshape_writes,
      binaryIndexed_writes, Finset.mem_singleton]
    repeat' apply And.intro
    all_goals exact devRef_ne_of_ne (by decide)
/-- The factor at the two endpoints of each edge, multiplied: the edge weights. -/
theorem A3_weights (x1 : (⟨S2x600000, .i32⟩ : BufTy).Contents (Elt Ideal)) (h3 : W (Proc.devRef .tc main_v3) = val_main_v3 (F := Ideal) x1)
    (h6 : W (Proc.devRef .tc main_v6) = val_main_v6 (F := Ideal) x1)
    (h14 : W (Proc.devRef .tc main_v14) = val_main_v14 (F := Ideal) x1) :
    after (opsA3 (F := Ideal)) W (Proc.devRef .tc main_v29) = val_main_v29 (F := Ideal) x1 := by
  unfold opsA3; after_results_simp
  rw [h3, h6, h14]
  rfl
theorem A3_keeps (r : Ref sig .tc) (hr : r = main_v3 ∨ r = main_v6) :
    after (opsA3 (F := Ideal)) W (Proc.devRef .tc r) = W (Proc.devRef .tc r) := by
  rcases hr with rfl | rfl <;>
  · refine after_of_forall_not_mem (b := Proc.devRef .tc _) _ _ (List.forall_iff_forall_mem.mp ?_)
    simp only [opsA3, List.Forall, nullary_writes, unary_writes, binary_writes, ternary_writes, quaternary_writes, reshape_writes,
      binaryIndexed_writes, Finset.mem_singleton]
    repeat' apply And.intro
    all_goals exact devRef_ne_of_ne (by decide)

theorem A_row : after (opsA (F := Ideal)) W (Proc.devRef .tc main_v3) = val_main_v3 (F := Ideal) (W (Proc.devRef .tc main_arg1)) := by
  rw [opsA_eq, after_append, after_append, A3_keeps _ main_v3 (by simp), A2_keeps _ main_v3 (by simp)]
  exact A1_row W
theorem A_col : after (opsA (F := Ideal)) W (Proc.devRef .tc main_v6) = val_main_v6 (F := Ideal) (W (Proc.devRef .tc main_arg1)) := by
  rw [opsA_eq, after_append, after_append, A3_keeps _ main_v6 (by simp), A2_keeps _ main_v6 (by simp)]
  exact A1_col W
theorem A_norm : after (opsA (F := Ideal)) W (Proc.devRef .tc main_v29) = val_main_v29 (F := Ideal) (W (Proc.devRef .tc main_arg1)) := by
  rw [opsA_eq, after_append, after_append]
  have h3 := A1_row W
  have h6 := A1_col W
  have h12 := A1_pos W
  have h13 := A1_rsqrt W
  have hc := A1_zero W
  generalize after opsA1 W = W1 at h3 h6 h12 h13 hc ⊢
  have h14 := A2_factor W1 _ h12 h13 hc
  have k2 := A2_keeps W1
  generalize after opsA2 W1 = W2 at h14 k2 ⊢
  exact A3_weights W2 _ ((k2 main_v3 (by simp)).trans h3) ((k2 main_v6 (by simp)).trans h6) h14
/-- The first piece writes no argument. -/
theorem A_keeps (r : Ref sig .tc) (hr : r = main_arg0 ∨ r = main_arg2 ∨ r = main_arg3 ∨ r = main_arg4 ∨ r = main_arg5) :
    after (opsA (F := Ideal)) W (Proc.devRef .tc r) = W (Proc.devRef .tc r) := by
  rcases hr with rfl | rfl | rfl | rfl | rfl <;>
  · refine after_of_forall_not_mem (b := Proc.devRef .tc _) _ _ (List.forall_iff_forall_mem.mp ?_)
    simp only [opsA, List.Forall, nullary_writes, unary_writes, binary_writes, ternary_writes, quaternary_writes, reshape_writes,
      binaryIndexed_writes, Finset.mem_singleton]
    repeat' apply And.intro
    all_goals exact devRef_ne_of_ne (by decide)

/-! ## The first dense product and its propagation -/

set_option maxHeartbeats 4000000 in
theorem B_agg (x0 : (⟨S50000x128, .f32⟩ : BufTy).Contents (Elt Ideal)) (x1 : (⟨S2x600000, .i32⟩ : BufTy).Contents (Elt Ideal)) (x2 : (⟨S128x16, .f32⟩ : BufTy).Contents (Elt Ideal))
    (h3 : W (Proc.devRef .tc main_v3) = val_main_v3 (F := Ideal) x1) (h6 : W (Proc.devRef .tc main_v6) = val_main_v6 (F := Ideal) x1)
    (h29 : W (Proc.devRef .tc main_v29) = val_main_v29 (F := Ideal) x1)
    (h0 : W (Proc.devRef .tc main_arg0) = x0) (h2 : W (Proc.devRef .tc main_arg2) = x2) :
    after (opsB (F := Ideal)) W (Proc.devRef .tc main_v43) = val_main_v43 (F := Ideal) x0 x1 x2 := by
  unfold opsB; after_results_simp
  rw [h3, h6, h29, h0, h2]
  rfl
/-- The second piece leaves the graph quantities and the arguments it does not read. -/
theorem B_keeps (r : Ref sig .tc) (hr : r = main_v3 ∨ r = main_v6 ∨ r = main_v29 ∨ r = main_arg3 ∨ r = main_arg4 ∨ r = main_arg5) :
    after (opsB (F := Ideal)) W (Proc.devRef .tc r) = W (Proc.devRef .tc r) := by
  rcases hr with rfl | rfl | rfl | rfl | rfl | rfl <;>
  · unfold opsB; after_results_simp

/-! ## The bias, the clip, the second dense product -/

theorem C_prod (x0 : (⟨S50000x128, .f32⟩ : BufTy).Contents (Elt Ideal)) (x1 : (⟨S2x600000, .i32⟩ : BufTy).Contents (Elt Ideal)) (x2 : (⟨S128x16, .f32⟩ : BufTy).Contents (Elt Ideal)) (x3 : (⟨S16, .f32⟩ : BufTy).Contents (Elt Ideal)) (x4 : (⟨S16x128, .f32⟩ : BufTy).Contents (Elt Ideal))
    (h43 : W (Proc.devRef .tc main_v43) = val_main_v43 (F := Ideal) x0 x1 x2) (h3 : W (Proc.devRef .tc main_arg3) = x3) (h4 : W (Proc.devRef .tc main_arg4) = x4) :
    after (opsC (F := Ideal)) W (Proc.devRef .tc main_v48) = val_main_v48 (F := Ideal) x0 x1 x2 x3 x4 := by
  unfold opsC; after_results_simp
  simp only [TRef.ofBuf, TRef.toBuf, cast_cast, cast_eq]
  rw [h43, h3, h4]
  rfl
/-- The third piece leaves the graph quantities and the last bias. -/
theorem C_keeps (r : Ref sig .tc) (hr : r = main_v3 ∨ r = main_v6 ∨ r = main_v29 ∨ r = main_arg5) :
    after (opsC (F := Ideal)) W (Proc.devRef .tc r) = W (Proc.devRef .tc r) := by
  rcases hr with rfl | rfl | rfl | rfl <;>
  · unfold opsC; after_results_simp

/-! ## The second propagation -/

set_option maxHeartbeats 4000000 in
theorem D_agg (x0 : (⟨S50000x128, .f32⟩ : BufTy).Contents (Elt Ideal)) (x1 : (⟨S2x600000, .i32⟩ : BufTy).Contents (Elt Ideal)) (x2 : (⟨S128x16, .f32⟩ : BufTy).Contents (Elt Ideal)) (x3 : (⟨S16, .f32⟩ : BufTy).Contents (Elt Ideal)) (x4 : (⟨S16x128, .f32⟩ : BufTy).Contents (Elt Ideal))
    (h3 : W (Proc.devRef .tc main_v3) = val_main_v3 (F := Ideal) x1) (h6 : W (Proc.devRef .tc main_v6) = val_main_v6 (F := Ideal) x1)
    (h29 : W (Proc.devRef .tc main_v29) = val_main_v29 (F := Ideal) x1)
    (h48 : W (Proc.devRef .tc main_v48) = val_main_v48 (F := Ideal) x0 x1 x2 x3 x4) :
    after (opsD (F := Ideal)) W (Proc.devRef .tc main_v61) = val_main_v61 (F := Ideal) x0 x1 x2 x3 x4 := by
  unfold opsD; after_results_simp
  rw [h3, h6, h29, h48]
  rfl
/-- The fourth piece leaves the last bias. -/
theorem D_keeps (r : Ref sig .tc) (hr : r = main_arg5) :
    after (opsD (F := Ideal)) W (Proc.devRef .tc r) = W (Proc.devRef .tc r) := by
  rcases hr with rfl <;>
  · unfold opsD; after_results_simp

/-! ## The bias and the rows' log-softmax -/

/-- The bias added to every row of the second propagation's result. -/
theorem E_bias (x0 : (⟨S50000x128, .f32⟩ : BufTy).Contents (Elt Ideal)) (x1 : (⟨S2x600000, .i32⟩ : BufTy).Contents (Elt Ideal)) (x2 : (⟨S128x16, .f32⟩ : BufTy).Contents (Elt Ideal)) (x3 : (⟨S16, .f32⟩ : BufTy).Contents (Elt Ideal)) (x4 : (⟨S16x128, .f32⟩ : BufTy).Contents (Elt Ideal)) (x5 : (⟨S128, .f32⟩ : BufTy).Contents (Elt Ideal))
    (h61 : W (Proc.devRef .tc main_v61) = val_main_v61 (F := Ideal) x0 x1 x2 x3 x4) (h5 : W (Proc.devRef .tc main_arg5) = x5) :
    after (opsE1 (F := Ideal)) W (Proc.devRef .tc main_v64) = val_main_v64 (F := Ideal) x0 x1 x2 x3 x4 x5 := by
  unfold opsE1; after_results_simp
  rw [h61, h5]
  rfl
/-- Each row's maximum. -/
theorem E_rowmax (x0 : (⟨S50000x128, .f32⟩ : BufTy).Contents (Elt Ideal)) (x1 : (⟨S2x600000, .i32⟩ : BufTy).Contents (Elt Ideal)) (x2 : (⟨S128x16, .f32⟩ : BufTy).Contents (Elt Ideal)) (x3 : (⟨S16, .f32⟩ : BufTy).Contents (Elt Ideal)) (x4 : (⟨S16x128, .f32⟩ : BufTy).Contents (Elt Ideal)) (x5 : (⟨S128, .f32⟩ : BufTy).Contents (Elt Ideal))
    (h64 : W (Proc.devRef .tc main_v64) = val_main_v64 (F := Ideal) x0 x1 x2 x3 x4 x5) :
    after (opsE2a (F := Ideal)) W (Proc.devRef .tc main_call2_v0) = val_main_call2_v0 (F := Ideal) x0 x1 x2 x3 x4 x5 := by
  unfold opsE2a; after_results_simp
  simp only [TRef.ofBuf, TRef.toBuf, cast_cast, cast_eq]
  rw [h64]
  rfl
/-- Taking the maxima leaves the biased rows. -/
theorem E_rowmax_keeps : after (opsE2a (F := Ideal)) W (Proc.devRef .tc main_v64) = W (Proc.devRef .tc main_v64) := by
  refine after_of_forall_not_mem (b := Proc.devRef .tc _) _ _ (List.forall_iff_forall_mem.mp ?_)
  simp only [opsE2a, List.Forall, nullary_writes, unary_writes, binary_writes, ternary_writes, quaternary_writes, reshape_writes,
    binaryIndexed_writes, Finset.mem_singleton]
  repeat' apply And.intro
  all_goals exact devRef_ne_of_ne (by decide)
/-- The maxima against minus infinity. -/
theorem E_max (x0 : (⟨S50000x128, .f32⟩ : BufTy).Contents (Elt Ideal)) (x1 : (⟨S2x600000, .i32⟩ : BufTy).Contents (Elt Ideal)) (x2 : (⟨S128x16, .f32⟩ : BufTy).Contents (Elt Ideal)) (x3 : (⟨S16, .f32⟩ : BufTy).Contents (Elt Ideal)) (x4 : (⟨S16x128, .f32⟩ : BufTy).Contents (Elt Ideal)) (x5 : (⟨S128, .f32⟩ : BufTy).Contents (Elt Ideal))
    (h0 : W (Proc.devRef .tc main_call2_v0) = val_main_call2_v0 (F := Ideal) x0 x1 x2 x3 x4 x5) :
    after (opsE2b (F := Ideal)) W (Proc.devRef .tc main_call2_v2) = val_main_call2_v2 (F := Ideal) x0 x1 x2 x3 x4 x5 := by
  unfold opsE2b; after_results_simp
  simp only [TRef.ofBuf, TRef.toBuf, cast_cast, cast_eq]
  rw [h0]
  rfl
/-- That too leaves the biased rows. -/
theorem E_max_keeps : after (opsE2b (F := Ideal)) W (Proc.devRef .tc main_v64) = W (Proc.devRef .tc main_v64) := by
  refine after_of_forall_not_mem (b := Proc.devRef .tc _) _ _ (List.forall_iff_forall_mem.mp ?_)
  simp only [opsE2b, List.Forall, nullary_writes, unary_writes, binary_writes, ternary_writes, quaternary_writes, reshape_writes,
    binaryIndexed_writes, Finset.mem_singleton]
  repeat' apply And.intro
  all_goals exact devRef_ne_of_ne (by decide)
/-- Each row less its maximum. -/
theorem E_shift (x0 : (⟨S50000x128, .f32⟩ : BufTy).Contents (Elt Ideal)) (x1 : (⟨S2x600000, .i32⟩ : BufTy).Contents (Elt Ideal)) (x2 : (⟨S128x16, .f32⟩ : BufTy).Contents (Elt Ideal)) (x3 : (⟨S16, .f32⟩ : BufTy).Contents (Elt Ideal)) (x4 : (⟨S16x128, .f32⟩ : BufTy).Contents (Elt Ideal)) (x5 : (⟨S128, .f32⟩ : BufTy).Contents (Elt Ideal))
    (h64 : W (Proc.devRef .tc main_v64) = val_main_v64 (F := Ideal) x0 x1 x2 x3 x4 x5)
    (h2 : W (Proc.devRef .tc main_call2_v2) = val_main_call2_v2 (F := Ideal) x0 x1 x2 x3 x4 x5) :
    after (opsE2c (F := Ideal)) W (Proc.devRef .tc main_call2_v5) = val_main_call2_v5 (F := Ideal) x0 x1 x2 x3 x4 x5 := by
  unfold opsE2c; after_results_simp
  simp only [TRef.ofBuf, TRef.toBuf, cast_cast, cast_eq]
  rw [h64, h2]
  rfl
/-- That, less the logarithm of the row's sum of exponentials. -/
theorem E_last (x0 : (⟨S50000x128, .f32⟩ : BufTy).Contents (Elt Ideal)) (x1 : (⟨S2x600000, .i32⟩ : BufTy).Contents (Elt Ideal)) (x2 : (⟨S128x16, .f32⟩ : BufTy).Contents (Elt Ideal)) (x3 : (⟨S16, .f32⟩ : BufTy).Contents (Elt Ideal)) (x4 : (⟨S16x128, .f32⟩ : BufTy).Contents (Elt Ideal)) (x5 : (⟨S128, .f32⟩ : BufTy).Contents (Elt Ideal))
    (hs : W (Proc.devRef .tc main_call2_v5) = val_main_call2_v5 (F := Ideal) x0 x1 x2 x3 x4 x5) :
    after (opsE3 (F := Ideal)) W (Proc.devRef .tc main_v65) = val_main_v65 (F := Ideal) x0 x1 x2 x3 x4 x5 := by
  unfold opsE3; after_results_simp
  simp only [TRef.ofBuf, TRef.toBuf, cast_cast, cast_eq]
  rw [hs]
  rfl
/-- The five parts in a row: the last piece takes the second propagation's result and the last bias to the result. -/
theorem E_out (x0 : (⟨S50000x128, .f32⟩ : BufTy).Contents (Elt Ideal)) (x1 : (⟨S2x600000, .i32⟩ : BufTy).Contents (Elt Ideal)) (x2 : (⟨S128x16, .f32⟩ : BufTy).Contents (Elt Ideal)) (x3 : (⟨S16, .f32⟩ : BufTy).Contents (Elt Ideal)) (x4 : (⟨S16x128, .f32⟩ : BufTy).Contents (Elt Ideal)) (x5 : (⟨S128, .f32⟩ : BufTy).Contents (Elt Ideal))
    (h61 : W (Proc.devRef .tc main_v61) = val_main_v61 (F := Ideal) x0 x1 x2 x3 x4) (h5 : W (Proc.devRef .tc main_arg5) = x5) :
    after (opsE (F := Ideal)) W (Proc.devRef .tc main_v65) = val_main_v65 (F := Ideal) x0 x1 x2 x3 x4 x5 := by
  rw [opsE_eq, after_append, after_append, after_append, after_append]
  have h64 := E_bias W x0 x1 x2 x3 x4 x5 h61 h5
  generalize after opsE1 W = W1 at h64 ⊢
  have h0 := E_rowmax W1 x0 x1 x2 x3 x4 x5 h64
  have k1 := E_rowmax_keeps W1
  generalize after opsE2a W1 = W2 at h0 k1 ⊢
  have h2 := E_max W2 x0 x1 x2 x3 x4 x5 h0
  have k2 := E_max_keeps W2
  generalize after opsE2b W2 = W3 at h2 k2 ⊢
  have hs := E_shift W3 x0 x1 x2 x3 x4 x5 (k2.trans (k1.trans h64)) h2
  generalize after opsE2c W3 = W4 at hs ⊢
  exact E_last W4 x0 x1 x2 x3 x4 x5 hs

/-! ## The whole list -/

/-- After all the operations the result buffer holds the last stage of the contents the arguments had at the start. -/
theorem result_eq : after ops W (Proc.devRef .tc main_v65)
    = val_main_v65 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  rw [ops_eq, after_append, after_append, after_append, after_append]
  have hA3 := A_row W
  have hA6 := A_col W
  have hA29 := A_norm W
  have kA := A_keeps W
  generalize after opsA W = WA at hA3 hA6 hA29 kA ⊢
  have hB := B_agg WA _ _ _ hA3 hA6 hA29 (kA main_arg0 (by simp)) (kA main_arg2 (by simp))
  have kB := B_keeps WA
  generalize after opsB WA = WB at hB kB ⊢
  have hC := C_prod WB _ _ _ _ _ hB ((kB main_arg3 (by simp)).trans (kA main_arg3 (by simp))) ((kB main_arg4 (by simp)).trans (kA main_arg4 (by simp)))
  have kC := C_keeps WB
  generalize after opsC WB = WC at hC kC ⊢
  have hD := D_agg WC _ _ _ _ _ ((kC main_v3 (by simp)).trans ((kB main_v3 (by simp)).trans hA3))
    ((kC main_v6 (by simp)).trans ((kB main_v6 (by simp)).trans hA6)) ((kC main_v29 (by simp)).trans ((kB main_v29 (by simp)).trans hA29)) hC
  have kD := D_keeps WC
  generalize after opsD WC = WD at hD kD ⊢
  exact E_out WD _ _ _ _ _ _ hD ((kD main_arg5 (by simp)).trans ((kC main_arg5 (by simp)).trans ((kB main_arg5 (by simp)).trans (kA main_arg5 (by simp)))))

/-- No operation writes an argument. -/
theorem args_kept (r : Ref sig .tc) (hr : r = main_arg0 ∨ r = main_arg1 ∨ r = main_arg2 ∨ r = main_arg3 ∨ r = main_arg4 ∨ r = main_arg5) :
    after ops W (Proc.devRef .tc r) = W (Proc.devRef .tc r) := by
  rcases hr with rfl | rfl | rfl | rfl | rfl | rfl <;>
  · refine after_of_forall_not_mem (b := Proc.devRef .tc _) _ _ (List.forall_iff_forall_mem.mp ?_)
    simp only [ops, List.Forall, nullary_writes, unary_writes, binary_writes, ternary_writes, quaternary_writes, reshape_writes,
      binaryIndexed_writes, Finset.mem_singleton]
    repeat' apply And.intro
    all_goals exact devRef_ne_of_ne (by decide)

/-- On every device, from any memory with zero counters: every weakly fair execution of the reference terminates, nothing
    faulting, with the result buffer at the last stage of the launch arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (result_eq (launchContents m c)),
      (h c main_arg0).trans (args_kept (launchContents m c) main_arg0 (by simp)),
      (h c main_arg1).trans (args_kept (launchContents m c) main_arg1 (by simp)),
      (h c main_arg2).trans (args_kept (launchContents m c) main_arg2 (by simp)),
      (h c main_arg3).trans (args_kept (launchContents m c) main_arg3 (by simp)),
      (h c main_arg4).trans (args_kept (launchContents m c) main_arg4 (by simp)),
      (h c main_arg5).trans (args_kept (launchContents m c) main_arg5 (by simp))⟩)
    (run_seq scopedRefs_eq scopedSems_eq defs main (fun _ => ops) main_eq (fun _ => ops_sub) m ρ)

end Cert.ReferenceIdeal.Stages

end
-- ==== Proof.lean ====
/-
  A two-layer graph convolution: the tiled kernel against the plain reference, on the extended reals.

  Both programs compute, from the edge-index argument, the edge lists (each edge's source and target, and one self-loop per
  node) and the symmetric normalisation weights; then, twice: a dense product with a weight matrix, one propagation step
  along the edges (gather by source, scale by the edge's weight, add into the target), and a bias — followed by a clip at
  zero after the first layer and by the rows' log-softmax after the second. The kernel runs the two dense products, the
  bias-and-clip and the bias-and-log-softmax as four tiled regions of ten row blocks each, and everything else on the host
  with the reference's own operations in the reference's order.

  At the extended reals a region's ten row blocks assemble to one whole-array function of the region's operands, because a row of
  each result depends only on the same row of the first operand: rounding the product's operands to a narrower format is the
  identity there, a product accumulated into zero is the plain sum over the contracted coordinate, and a lane maximum and a
  lane sum are the fold and the sum over the row. The reference's stages are the same whole-array functions. So the two
  results are one function of the arguments; no finiteness of the inputs is used. The three frames are the programs' runs with
  the result dropped, and nothing was rewritten between the kernel and its idealization.
-/
import proofs.«114538_j73581379715703_1_alg».proof.Defs
import proofs.«114538_j73581379715703_1_alg».proof.Proof.Gen.Kernel
import proofs.«114538_j73581379715703_1_alg».proof.Proof.Gen.Kernel.Skeleton
import proofs.«114538_j73581379715703_1_alg».proof.Proof.Gen.Kernel.Launch
import proofs.«114538_j73581379715703_1_alg».proof.Proof.Gen.Kernel.Points
import proofs.«114538_j73581379715703_1_alg».proof.Proof.Gen.Kernel.Frame
import proofs.«114538_j73581379715703_1_alg».proof.Proof.Gen.KernelIdeal
import proofs.«114538_j73581379715703_1_alg».proof.Proof.Gen.KernelIdeal.Skeleton
import proofs.«114538_j73581379715703_1_alg».proof.Proof.Gen.KernelIdeal.Launch
import proofs.«114538_j73581379715703_1_alg».proof.Proof.Gen.KernelIdeal.Points
import proofs.«114538_j73581379715703_1_alg».proof.Proof.Gen.KernelIdeal.Frame
import proofs.«114538_j73581379715703_1_alg».proof.Proof.Gen.ReferenceIdeal
import proofs.«114538_j73581379715703_1_alg».proof.Proof.Gen.Pre_finite_inputs
import proofs.«114538_j73581379715703_1_alg».proof.Proof.KernelRun
import proofs.«114538_j73581379715703_1_alg».proof.Proof.KernelValue
import proofs.«114538_j73581379715703_1_alg».proof.Proof.RefStages
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Stages.run m ρ)

/-- The idealization rewrote no operation. -/
theorem preserves : Cert.preserves_Kernel_KernelIdeal := trivial

/-- From memories that agree on the arguments both programs end with the reference's result term of those arguments in
    their result buffers: the kernel by reading its segment boundaries forwards, the reference by its run. -/
theorem algebraic : Cert.algebraic_KernelIdeal_ReferenceIdeal := by
  intro m ρ m' ρ' _ hagree
  refine ⟨fun c => Cert.ReferenceIdeal.ReadP.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Boundaries.W9_result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Stages.run m' ρ')
    rw [(hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
